-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S4x4096x1 : Shape := ⟨3, ![4, 4096, 1]⟩
abbrev S2048 : Shape := ⟨1, ![2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S4x4096x1 : S_.BroadcastsInDim S4x4096x1 (![] : Fin 0 → Fin S4x4096x1.rank)
  reducesTo_S4x4096x1_S_d0_1_2 : S4x4096x1.ReducesTo [0, 1, 2] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S4x4096x1 .f32) (main_arg5 : FVec F S2048 .f32) (main_arg6 : FVec F S4x4096x2048 .f32) (main_v13 : IVec S_ 1) (main_v16 : IVec S4x4096x1 1) : IVec S_ 1 :=
  let main_c_5 : IVec S_ 1 := constantI S_ 1 1#1
  let main_v17 : IVec S_ 1 := (fun x v => Host.reduce IntOp.andi x v reducesTo_S4x4096x1_S_d0_1_2 h_S_) main_v16 main_c_5
  let main_v18 : IVec S_ 1 := andi main_v13 main_v17
  let main_v19 : FVec F S4x4096x1 .f32 := Host.absf main_arg4
  let main_cst_6 : FVec F S_ .f32 := constant S_ .f32 0x7F800000#32
  let main_v20 : FVec F S4x4096x1 .f32 := broadcastInDim S4x4096x1 ![] bcast_S_S4x4096x1 main_cst_6
  let main_v21 : IVec S4x4096x1 1 := cmpf .olt main_v19 main_v20
  let main_c_7 : IVec S_ 1 := constantI S_ 1 1#1
  let main_v22 : IVec S_ 1 := (fun x v => Host.reduce IntOp.andi x v reducesTo_S4x4096x1_S_d0_1_2 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S4x4096x2048 .f32 := Host.absf main_arg6
  let main_cst_10 : FVec F S_ .f32 := constant S_ .f32 0x7F800000#32
  let main_v30 : FVec F S4x4096x2048 .f32 := broadcastInDim S4x4096x2048 ![] bcast_S_S4x4096x2048 main_cst_10
  let main_v31 : IVec S4x4096x2048 1 := cmpf .olt main_v29 main_v30
  let main_c_11 : IVec S_ 1 := constantI S_ 1 1#1
  let main_v32 : IVec S_ 1 := (fun x v => Host.reduce IntOp.andi x v reducesTo_S4x4096x2048_S_d0_1_2 h_S_) main_v31 main_c_11
  let main_v33 : IVec S_ 1 := andi main_v28 main_v32
  main_v33

def fn {F : FTy → Type} [FloatOps F] (main_arg0 : FVec F S4x4096x2048 .f32) (main_arg1 : FVec F S4x4096x2048 .f32) (main_arg2 : FVec F S4x4096x2048 .f32) (main_arg3 : FVec F S4x4096x1 .f32) (main_arg4 : FVec F S4x4096x1 .f32) (main_arg5 : FVec F S2048 .f32) (main_arg6 : FVec F S4x4096x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S4x4096x2048 .f32 := Host.absf main_arg1
  let main_cst_0 : FVec F S_ .f32 := constant S_ .f32 0x7F800000#32
  let main_v5 : FVec F S4x4096x2048 .f32 := broadcastInDim S4x4096x2048 ![] bcast_S_S4x4096x2048 main_cst_0
  let main_v6 : IVec S4x4096x2048 1 := cmpf .olt main_v4 main_v5
  let main_c_1 : IVec S_ 1 := constantI S_ 1 1#1
  let main_v7 : IVec S_ 1 := (fun x v => Host.reduce IntOp.andi x v reducesTo_S4x4096x2048_S_d0_1_2 h_S_) main_v6 main_c_1
  let main_v8 : IVec S_ 1 := andi main_v3 main_v7
  let main_v9 : FVec F S4x4096x2048 .f32 := Host.absf main_arg2
  let main_cst_2 : FVec F S_ .f32 := constant S_ .f32 0x7F800000#32
  let main_v10 : FVec F S4x4096x2048 .f32 := broadcastInDim S4x4096x2048 ![] bcast_S_S4x4096x2048 main_cst_2
  let main_v11 : IVec S4x4096x2048 1 := cmpf .olt main_v9 main_v10
  let main_c_3 : IVec S_ 1 := constantI S_ 1 1#1
  let main_v12 : IVec S_ 1 := (fun x v => Host.reduce IntOp.andi x v reducesTo_S4x4096x2048_S_d0_1_2 h_S_) main_v11 main_c_3
  let main_v13 : IVec S_ 1 := andi main_v8 main_v12
  let main_v14 : FVec F S4x4096x1 .f32 := Host.absf main_arg3
  let main_cst_4 : FVec F S_ .f32 := constant S_ .f32 0x7F800000#32
  let main_v15 : FVec F S4x4096x1 .f32 := broadcastInDim S4x4096x1 ![] bcast_S_S4x4096x1 main_cst_4
  let main_v16 : IVec S4x4096x1 1 := cmpf .olt main_v14 main_v15
  fn_part1 (F := F) main_arg4 main_arg5 main_arg6 main_v13 main_v16
-- ==== Kernel.lean ====
abbrev S4x4096x2048 : Shape := ⟨3, ![4, 4096, 2048]⟩
abbrev S4x4096x1 : Shape := ⟨3, ![4, 4096, 1]⟩
abbrev S2048 : Shape := ⟨1, ![2048]⟩
abbrev S16384x2048 : Shape := ⟨2, ![16384, 2048]⟩
abbrev S16384x1 : Shape := ⟨2, ![16384, 1]⟩
abbrev S1x2048 : Shape := ⟨2, ![1, 2048]⟩
abbrev S2x8x2048 : Shape := ⟨3, ![2, 8, 2048]⟩
abbrev S256x2048 : Shape := ⟨2, ![256, 2048]⟩
abbrev S256x1 : Shape := ⟨2, ![256, 1]⟩
abbrev S1x8x2048 : Shape := ⟨3, ![1, 8, 2048]⟩
abbrev S256 : Shape := ⟨1, ![256]⟩
abbrev S1x1x2048 : Shape := ⟨3, ![1, 1, 2048]⟩
abbrev S2x1x2048 : Shape := ⟨3, ![2, 1, 2048]⟩
abbrev S2x2048 : Shape := ⟨2, ![2, 2048]⟩
abbrev S_ : Shape := ⟨0, ![]⟩

abbrev nBuf : Space → Nat
  | .hbm => 26
  | .vmem => 19
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x4096x2048, .f32⟩
  | .hbm, ⟨3, _⟩ => ⟨S4x4096x1, .f32⟩
  | .hbm, ⟨4, _⟩ => ⟨S4x4096x1, .f32⟩
  | .hbm, ⟨5, _⟩ => ⟨S2048, .f32⟩
  | .hbm, ⟨6, _⟩ => ⟨S4x4096x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S16384x1, .f32⟩
  | .hbm, ⟨12, _⟩ => ⟨S16384x1, .f32⟩
  | .hbm, ⟨13, _⟩ => ⟨S1x2048, .f32⟩
  | .hbm, ⟨14, _⟩ => ⟨S16384x2048, .f32⟩
  | .hbm, ⟨15, _⟩ => ⟨S2x8x2048, .f32⟩
  | .hbm, ⟨16, _⟩ => ⟨S2x8x2048, .f32⟩
  | .hbm, ⟨17, _⟩ => ⟨S4x4096x2048, .f32⟩
  | .hbm, ⟨18, _⟩ => ⟨S2x1x2048, .f32⟩
  | .hbm, ⟨19, _⟩ => ⟨S2x2048, .f32⟩
  | .hbm, ⟨20, _⟩ => ⟨S_, .f32⟩
  | .hbm, ⟨21, _⟩ => ⟨S2048, .f32⟩
  | .hbm, ⟨22, _⟩ => ⟨S2x1x2048, .f32⟩
  | .hbm, ⟨23, _⟩ => ⟨S2x2048, .f32⟩
  | .hbm, ⟨24, _⟩ => ⟨S_, .f32⟩
  | .hbm, ⟨25, _⟩ => ⟨S2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S1x8x2048, .f32⟩
  | .local _ .vmem, ⟨16, _⟩ => ⟨S1x8x2048, .f32⟩
  | .local _ .vmem, ⟨17, _⟩ => ⟨S1x8x2048, .f32⟩
  | .local _ .vmem, ⟨18, _⟩ => ⟨S1x8x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  shapeCasts_S4x4096x2048_S16384x2048 : S4x4096x2048.ShapeCasts S16384x2048
  shapeCasts_S4x4096x1_S16384x1 : S4x4096x1.ShapeCasts S16384x1
  shapeCasts_S2048_S1x2048 : S2048.ShapeCasts S1x2048
  inb_S1x8x2048_S1x8x2048_0_0_0 : ∀ a, (![0, 0, 0] : Fin 3 → Nat) a + S1x8x2048.size a ≤ S1x8x2048.size a
  h_S1x8x2048 : 0 < S1x8x2048.numel
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  broadcasts_S256x1_S256x2048 : S256x1.Broadcasts S256x2048
  reduces_S256x2048_S256 : S256x2048.Reduces [1] S256
  shapeCasts_S256_S256x1 : S256.ShapeCasts S256x1
  reduces_S256x2048_S2048 : S256x2048.Reduces [0] S2048
  shapeCasts_S1x8x2048_S1x8x2048 : S1x8x2048.ShapeCasts S1x8x2048
  shapeCasts_S2048_S1x1x2048 : S2048.ShapeCasts S1x1x2048
  shapeCasts_S1x1x2048_S1x1x2048 : S1x1x2048.ShapeCasts S1x1x2048
  broadcasts_S1x1x2048_S1x8x2048 : S1x1x2048.Broadcasts S1x8x2048
  shapeCasts_S16384x2048_S4x4096x2048 : S16384x2048.ShapeCasts S4x4096x2048
  slices_S2x8x2048_S2x1x2048_0_0_0 : S2x8x2048.Slices ![0, 0, 0] S2x1x2048
  shapeCasts_S2x1x2048_S2x2048 : S2x1x2048.ShapeCasts S2x2048
  reducesTo_S2x2048_S2048_d0 : S2x2048.ReducesTo [0] S2048
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S16384x2048.size a
  hwx0_1 : ∀ i : grid0.Coords, EltTy.bits .f32 = 32 ∨ (Rect.block (s := S16384x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S16384x2048.size a
  hwx0_2 : ∀ i : grid0.Coords, EltTy.bits .f32 = 32 ∨ (Rect.block (s := S16384x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S16384x1.size a
  hwx0_3 : ∀ i : grid0.Coords, EltTy.bits .f32 = 32 ∨ (Rect.block (s := S16384x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S16384x1.size a
  hwx0_4 : ∀ i : grid0.Coords, EltTy.bits .f32 = 32 ∨ (Rect.block (s := S16384x1) S256x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S16384x2048.size a
  hwx0_6 : ∀ i : grid0.Coords, EltTy.bits .f32 = 32 ∨ (Rect.block (s := S16384x2048) S256x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S16384x2048.size a
  hwx0_7 : ∀ i : grid0.Coords, EltTy.bits .f32 = 32 ∨ (Rect.block (s := S16384x2048) S256x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x8x2048.size a ≤ S2x8x2048.size a
  hwx0_8 : ∀ i : grid0.Coords, EltTy.bits .f32 = 32 ∨ (Rect.block (s := S2x8x2048) S1x8x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x8x2048.size a ≤ S2x8x2048.size a
  hwx0_9 : ∀ i : grid0.Coords, EltTy.bits .f32 = 32 ∨ (Rect.block (s := S2x8x2048) S1x8x2048.size (cc0_transform_9 i) (hinb0_9 i)).WholeWords (EltTy.packing .f32)

variable [Facts₀]

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S256x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_0) S256x2048.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_1) S1x8x2048.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7_2) S1x8x2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S4x4096x1 : Shape := ⟨3, ![4, 4096, 1]⟩
abbrev S2048 : Shape := ⟨1, ![2048]⟩
abbrev S1x1x2048 : Shape := ⟨3, ![1, 1, 2048]⟩
abbrev S_ : Shape := ⟨0, ![]⟩
abbrev S4x4096 : Shape := ⟨2, ![4, 4096]⟩

abbrev nBuf : Space → Nat
  | .hbm => 59
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x4096x2048, .f32⟩
  | .hbm, ⟨3, _⟩ => ⟨S4x4096x1, .f32⟩
  | .hbm, ⟨4, _⟩ => ⟨S4x4096x1, .f32⟩
  | .hbm, ⟨5, _⟩ => ⟨S2048, .f32⟩
  | .hbm, ⟨6, _⟩ => ⟨S4x4096x2048, .f32⟩
  | .hbm, ⟨7, _⟩ => ⟨S4x4096x2048, .f32⟩
  | .hbm, ⟨8, _⟩ => ⟨S1x1x2048, .f32⟩
  | .hbm, ⟨9, _⟩ => ⟨S4x4096x2048, .f32⟩
  | .hbm, ⟨10, _⟩ => ⟨S4x4096x2048, .f32⟩
  | .hbm, ⟨11, _⟩ => ⟨S4x4096x2048, .f32⟩
  | .hbm, ⟨12, _⟩ => ⟨S4x4096x2048, .f32⟩
  | .hbm, ⟨13, _⟩ => ⟨S_, .f32⟩
  | .hbm, ⟨14, _⟩ => ⟨S4x4096x2048, .f32⟩
  | .hbm, ⟨15, _⟩ => ⟨S4x4096x2048, .f32⟩
  | .hbm, ⟨16, _⟩ => ⟨S4x4096x2048, .f32⟩
  | .hbm, ⟨17, _⟩ => ⟨S4x4096x1, .f32⟩
  | .hbm, ⟨18, _⟩ => ⟨S4x4096x1, .f32⟩
  | .hbm, ⟨19, _⟩ => ⟨S4x4096x2048, .f32⟩
  | .hbm, ⟨20, _⟩ => ⟨S4x4096x2048, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S_, .f32⟩
  | .hbm, ⟨28, _⟩ => ⟨S4x4096, .f32⟩
  | .hbm, ⟨29, _⟩ => ⟨S4x4096x1, .f32⟩
  | .hbm, ⟨30, _⟩ => ⟨S_, .f32⟩
  | .hbm, ⟨31, _⟩ => ⟨S4x4096x1, .f32⟩
  | .hbm, ⟨32, _⟩ => ⟨S4x4096x1, .f32⟩
  | .hbm, ⟨33, _⟩ => ⟨S_, .f32⟩
  | .hbm, ⟨34, _⟩ => ⟨S4x4096, .f32⟩
  | .hbm, ⟨35, _⟩ => ⟨S4x4096x1, .f32⟩
  | .hbm, ⟨36, _⟩ => ⟨S4x4096x1, .f32⟩
  | .hbm, ⟨37, _⟩ => ⟨S4x4096x1, .f32⟩
  | .hbm, ⟨38, _⟩ => ⟨S4x4096x2048, .f32⟩
  | .hbm, ⟨39, _⟩ => ⟨S4x4096x2048, .f32⟩
  | .hbm, ⟨40, _⟩ => ⟨S_, .f32⟩
  | .hbm, ⟨41, _⟩ => ⟨S4x4096x1, .f32⟩
  | .hbm, ⟨42, _⟩ => ⟨S4x4096x1, .f32⟩
  | .hbm, ⟨43, _⟩ => ⟨S4x4096x2048, .f32⟩
  | .hbm, ⟨44, _⟩ => ⟨S4x4096x2048, .f32⟩
  | .hbm, ⟨45, _⟩ => ⟨S4x4096x2048, .f32⟩
  | .hbm, ⟨46, _⟩ => ⟨S_, .f32⟩
  | .hbm, ⟨47, _⟩ => ⟨S4x4096x1, .f32⟩
  | .hbm, ⟨48, _⟩ => ⟨S4x4096x1, .f32⟩
  | .hbm, ⟨49, _⟩ => ⟨S4x4096x2048, .f32⟩
  | .hbm, ⟨50, _⟩ => ⟨S4x4096x2048, .f32⟩
  | .hbm, ⟨51, _⟩ => ⟨S4x4096x2048, .f32⟩
  | .hbm, ⟨52, _⟩ => ⟨S4x4096x2048, .f32⟩
  | .hbm, ⟨53, _⟩ => ⟨S4x4096x2048, .f32⟩
  | .hbm, ⟨54, _⟩ => ⟨S4x4096x2048, .f32⟩
  | .hbm, ⟨55, _⟩ => ⟨S_, .f32⟩
  | .hbm, ⟨56, _⟩ => ⟨S2048, .f32⟩
  | .hbm, ⟨57, _⟩ => ⟨S_, .f32⟩
  | .hbm, ⟨58, _⟩ => ⟨S2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  bcast_S4x4096x1_S4x4096x2048_0_1_2 : S4x4096x1.BroadcastsInDim S4x4096x2048 (![0, 1, 2] : Fin 3 → Fin S4x4096x2048.rank)
  bcast_S_S4x4096x2048 : S_.BroadcastsInDim S4x4096x2048 (![] : Fin 0 → Fin S4x4096x2048.rank)
  reducesTo_S4x4096x2048_S4x4096_d2 : S4x4096x2048.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  reducesTo_S4x4096x2048_S2048_d0_1 : S4x4096x2048.ReducesTo [0, 1] S2048

variable [Facts₀]

class Facts : Prop extends Facts₀ where

variable [Facts]
-- ==== Proof.Spec.lean ====
/-
  The mathematics of this certificate, with no program in sight: the backward pass of a layer
  normalisation over rows of length `n`, on the extended reals.

  For one row with upstream gradient `dy`, inputs `x1 + x2`, saved mean `mu` and saved reciprocal
  standard deviation `r`, and the scale vector `g`:
    x̂ k      = (x1 k + x2 k) - mu
    pd_var   = ∑ k, (-1/2) · (dy k · g k) · x̂ k · r³
    pd_mean  = ∑ k, -(dy k · g k) · r  +  pd_var · (-2/n) · ∑ k, x̂ k
    dx k     = (dy k · g k) · r + pd_var · (2/n) · x̂ k + pd_mean · (1/n) + ds k
  and over all rows, per column, dgamma = ∑ rows dy · x̂ · r and dbeta = ∑ rows dy.

  Two arrangements of the row formula are written out — one groups the factors of pd_var's
  summand as `((c · p) · x̂) · ((r · r) · r)` and sums the negated products; the other groups them
  as `(c · ((p · r) · (r · r))) · x̂` and negates the sum — and shown equal. Regrouping a product is
  free on the extended reals; negating a sum term by term is not (`-(⊤ + ⊥) = ⊤` but `⊥ + ⊤ = ⊥`),
  so that step uses that `dy`, `g` and `r` are real numbers.
-/
import Idealize.ShloMosaic.PureOps.Ideal
import Idealize.ShloMosaic.PureOps.Ideal.Laws
import Idealize.ShloMosaic.Lib.ValueIdx

noncomputable section

open scoped BigOperators

namespace Cert.LnBwd

open Idealize.ShloMosaic Idealize.ShloMosaic.ValueIdx

/-- The constants of both programs, as the words they are printed with: `0`, `-1/2`, `-2/2048`, `2/2048`, `1/2048`. The
    same word on both sides is never evaluated; only the zero word is (`Ideal.ofBits_zero_f32`). -/
abbrev Z : EReal := Ideal.ofBits .f32 0x00000000#32
abbrev cH : EReal := Ideal.ofBits .f32 0xBF000000#32
abbrev cM2 : EReal := Ideal.ofBits .f32 0xBA800000#32
abbrev cP2 : EReal := Ideal.ofBits .f32 0x3A800000#32
abbrev cP1 : EReal := Ideal.ofBits .f32 0x3A000000#32

/-- The zero word is the extended real zero. -/
theorem Z_eq : Z = 0 := Ideal.ofBits_zero_f32

/-! ## One row -/

section Row

variable {n : Nat} (dy g x1 x2 ds : Fin n → EReal) (r mu : EReal)

/-- The centred input. -/
def xhat (x1 x2 : Fin n → EReal) (mu : EReal) (k : Fin n) : EReal := (x1 k + x2 k) - mu

/-- The gradient with respect to the variance, summand grouped `((c · p) · x̂) · ((r · r) · r)`, summed from zero. -/
def pdVar : EReal := Z + ∑ k, ((cH * (dy k * g k)) * xhat x1 x2 mu k) * ((r * r) * r)

/-- The row sum of the centred input, from zero. -/
def sumXhat (x1 x2 : Fin n → EReal) (mu : EReal) : EReal := Z + ∑ k, xhat x1 x2 mu k

/-- The gradient with respect to the mean: the sum of the negated products, plus the variance term. -/
def pdMean : EReal := (Z + ∑ k, (-(dy k * g k)) * r) + (pdVar dy g x1 x2 r mu * cM2) * sumXhat x1 x2 mu

/-- The input gradient at column `h`. -/
def gxRow (h : Fin n) : EReal :=
  ((((dy h * g h) * r) + (pdVar dy g x1 x2 r mu * cP2) * xhat x1 x2 mu h) + pdMean dy g x1 x2 r mu * cP1) + ds h

/-- The other arrangement: the summand grouped `(c · ((p · r) · (r · r))) · x̂`, no initial zero. -/
def pdVarK : EReal := ∑ k, (cH * (((dy k * g k) * r) * (r * r))) * xhat x1 x2 mu k

def sumXhatK (x1 x2 : Fin n → EReal) (mu : EReal) : EReal := ∑ k, xhat x1 x2 mu k

/-- The other arrangement: zero minus the sum of the products. -/
def pdMeanK : EReal := (Z - ∑ k, ((dy k * g k) * r)) + (pdVarK dy g x1 x2 r mu * cM2) * sumXhatK x1 x2 mu

def gxRowK (h : Fin n) : EReal :=
  ((((dy h * g h) * r) + (pdVarK dy g x1 x2 r mu * cP2) * xhat x1 x2 mu h) + pdMeanK dy g x1 x2 r mu * cP1) + ds h

theorem pdVarK_eq : pdVarK dy g x1 x2 r mu = pdVar dy g x1 x2 r mu := by
  unfold pdVarK pdVar
  rw [Z_eq, zero_add]
  refine Finset.sum_congr rfl fun k _ => ?_
  ac_rfl

theorem sumXhatK_eq : sumXhatK x1 x2 mu = sumXhat x1 x2 mu := by
  unfold sumXhatK sumXhat
  rw [Z_eq, zero_add]

/-- A finite sum of real numbers, read in the extended reals, is the real sum. -/
theorem coe_sum {ι : Type*} (s : Finset ι) (a : ι → ℝ) : ∑ k ∈ s, ((a k : ℝ) : EReal) = ((∑ k ∈ s, a k : ℝ) : EReal) := by
  classical
  induction s using Finset.induction_on with
  | empty => simp
  | insert i s hi ih => rw [Finset.sum_insert hi, Finset.sum_insert hi, ih, EReal.coe_add]

/-- The negative of a finite sum of real numbers is the sum of the negatives, in the extended reals. -/
theorem neg_sum_coe {ι : Type*} (s : Finset ι) (a : ι → ℝ) : -(∑ k ∈ s, ((a k : ℝ) : EReal)) = ∑ k ∈ s, -((a k : ℝ) : EReal) := by
  rw [coe_sum, ← EReal.coe_neg, ← Finset.sum_neg_distrib, ← coe_sum]
  exact Finset.sum_congr rfl fun k _ => EReal.coe_neg _

/-- Zero minus the sum of the products is the sum of the negated products — for real `dy`, `g`, `r`. -/
theorem neg_sum_eq (hdy : ∀ k, ∃ a : ℝ, dy k = (a : EReal)) (hg : ∀ k, ∃ b : ℝ, g k = (b : EReal)) (hr : ∃ c : ℝ, r = (c : EReal)) :
    Z - ∑ k, ((dy k * g k) * r) = Z + ∑ k, (-(dy k * g k)) * r := by
  choose a ha using hdy
  choose b hb using hg
  obtain ⟨c, rfl⟩ := hr
  rw [Z_eq, zero_add, zero_sub]
  have e : ∀ k, (dy k * g k) * (c : EReal) = ((a k * b k * c : ℝ) : EReal) := fun k => by
    rw [ha k, hb k, ← EReal.coe_mul, ← EReal.coe_mul]
  simp only [EReal.neg_mul, e]
  exact neg_sum_coe _ _

theorem pdMeanK_eq (hdy : ∀ k, ∃ a : ℝ, dy k = (a : EReal)) (hg : ∀ k, ∃ b : ℝ, g k = (b : EReal)) (hr : ∃ c : ℝ, r = (c : EReal)) :
    pdMeanK dy g x1 x2 r mu = pdMean dy g x1 x2 r mu := by
  unfold pdMeanK pdMean
  rw [pdVarK_eq, sumXhatK_eq, neg_sum_eq dy g r hdy hg hr]

/-- THE ROW LAW: the two arrangements of the input gradient agree when `dy`, `g` and `r` are real. -/
theorem gxRowK_eq (hdy : ∀ k, ∃ a : ℝ, dy k = (a : EReal)) (hg : ∀ k, ∃ b : ℝ, g k = (b : EReal)) (hr : ∃ c : ℝ, r = (c : EReal)) (h : Fin n) :
    gxRowK dy g x1 x2 ds r mu h = gxRow dy g x1 x2 ds r mu h := by
  unfold gxRowK gxRow
  rw [pdVarK_eq, pdMeanK_eq dy g x1 x2 r mu hdy hg hr]

end Row

/-! ## The arrays: batch 4, sequence 4096, features 2048 -/

abbrev SX : Shape := ⟨3, ![4, 4096, 2048]⟩
abbrev SC : Shape := ⟨3, ![4, 4096, 1]⟩
abbrev SG : Shape := ⟨1, ![2048]⟩

section Arrays

variable (dy x1 x2 : SX.Idx → EReal) (rstd mean : SC.Idx → EReal) (gamma : SG.Idx → EReal) (dsum : SX.Idx → EReal)

/-- Row `(b, s)` of a `[4, 4096, 2048]` array. -/
def rowOf (a : SX.Idx → EReal) (b : Fin 4) (s : Fin 4096) : Fin 2048 → EReal := fun k => a (ix3 b s k)
/-- Entry `(b, s)` of a `[4, 4096, 1]` array. -/
def colOf (a : SC.Idx → EReal) (b : Fin 4) (s : Fin 4096) : EReal := a (ix3 b s (0 : Fin 1))
/-- The scale vector by its coordinate. -/
def vecOf (a : SG.Idx → EReal) : Fin 2048 → EReal := fun k => a (ix1 k)

/-- The input gradient at `(b, s, h)`. -/
def gxAt (b : Fin 4) (s : Fin 4096) (h : Fin 2048) : EReal :=
  gxRow (rowOf dy b s) (vecOf gamma) (rowOf x1 b s) (rowOf x2 b s) (rowOf dsum b s) (colOf rstd b s) (colOf mean b s) h

/-- The summand of the scale gradient at row `(b, s)`, column `h`: `(dy · x̂) · r`. -/
def ggTerm (b : Fin 4) (s : Fin 4096) (h : Fin 2048) : EReal :=
  (dy (ix3 b s h) * xhat (rowOf x1 b s) (rowOf x2 b s) (colOf mean b s) h) * colOf rstd b s

/-- THE SPECIFICATION: the three results as functions of the seven argument arrays. -/
def GX : SX.Idx → EReal := fun i => gxAt dy x1 x2 rstd mean gamma dsum (i 0) (i 1) (i 2)
def GG : SG.Idx → EReal := fun j => Z + ∑ b : Fin 4, ∑ s : Fin 4096, ggTerm dy x1 x2 rstd mean b s (j 0)
def GB : SG.Idx → EReal := fun j => Z + ∑ b : Fin 4, ∑ s : Fin 4096, dy (ix3 b s (j 0))

end Arrays

end Cert.LnBwd

end
-- ==== Proof.RefSide.lean ====
import proofs.«163792_j60713657697040_2_alg».proof.Proof.Gen.ReferenceIdeal.Read
import proofs.«163792_j60713657697040_2_alg».proof.Proof.Spec
import Idealize.ShloMosaic.Lib.ValueIdx
import Idealize.ShloMosaic.PureOps.Ideal.Laws
import Idealize.ShloMosaic.Lib.Pipeline.Value

/-!
  The reference program computes the specification.

  Each of the reference's three results is read at an index: an elementwise operation reads its operands at the same
  index, a broadcast reads its operand at the index with the broadcast coordinates dropped (a per-row value at
  `(b, s, 0)`, the scale vector at `h`), a sum over the feature axis is the initial value plus the sum over `k` of its
  operand at `(b, s, k)`. Read so, the input gradient at `(b, s, h)` is the row formula of the specification, term for
  term, in the reference's own grouping of every product and sum.

  The scale and shift gradients sum over the batch and the sequence axes at once. The indices of a `[4, 4096, 2048]`
  array whose feature coordinate is `h` are exactly the `(b, s, h)`, one for each pair `(b, s)`, so the sum over them is
  the double sum over `b` and `s`.
-/

noncomputable section

open scoped BigOperators

namespace Cert.LnBwd.RefSide

open Idealize.ShloMosaic Idealize.ShloMosaic.ValueIdx Cert.ReferenceIdeal Cert.ReferenceIdeal.Read

/-! ## The sum over batch and sequence -/

/-- Dropping the batch and sequence coordinates of `(b, s, h)` leaves `h`. -/
theorem drop_ix3 (hr : S4x4096x2048.ReducesTo [0, 1] S2048) (b : Fin 4) (s : Fin 4096) (h : Fin 2048) :
    hr.drop (ix3 b s h) = ix1 h := by
  funext a
  match a with
  | ⟨0, _⟩ => rfl

/-- An index that drops to `j` is `(b, s, j 0)` for its own batch and sequence coordinates. -/
theorem eq_ix3_of_drop (hr : S4x4096x2048.ReducesTo [0, 1] S2048) (i : S4x4096x2048.Idx) (j : S2048.Idx)
    (e : hr.drop i = j) : i = ix3 (i 0) (i 1) (j 0) := by
  subst e
  funext a
  match a with
  | ⟨0, _⟩ => rfl
  | ⟨1, _⟩ => rfl
  | ⟨2, _⟩ => rfl

/-- The pairs `(b, s)` embed as the indices `(b, s, j 0)`. -/
def rowEmb (j : S2048.Idx) : Fin 4 × Fin 4096 ↪ S4x4096x2048.Idx :=
  ⟨fun p => ix3 p.1 p.2 (j 0), fun p q e => Prod.ext (congrFun e 0) (congrFun e 1)⟩

/-- The indices summed at `j` are exactly the image of the pairs `(b, s)`. -/
theorem filter_drop (hr : S4x4096x2048.ReducesTo [0, 1] S2048) (j : S2048.Idx) :
    Finset.univ.filter (fun i : S4x4096x2048.Idx => hr.drop i = j) = Finset.univ.map (rowEmb j) := by
  ext i
  simp only [Finset.mem_filter, Finset.mem_univ, true_and, Finset.mem_map, rowEmb, Function.Embedding.coeFn_mk]
  constructor
  · intro e
    exact ⟨(i 0, i 1), (eq_ix3_of_drop hr i j e).symm⟩
  · rintro ⟨p, rfl⟩
    exact (drop_ix3 hr p.1 p.2 (j 0)).trans (eq_ix1 j).symm

/-- The sum over the batch and sequence axes, at feature `j 0`: the initial value plus the double sum. -/
theorem hostReduceAdd_rows (hr : S4x4096x2048.ReducesTo [0, 1] S2048) (x : S4x4096x2048.Idx → EReal) (init : EReal)
    (j : S2048.Idx) :
    Ideal.hostReduceAdd hr x init j = init + ∑ b : Fin 4, ∑ s : Fin 4096, x (ix3 b s (j 0)) := by
  unfold Ideal.hostReduceAdd
  rw [filter_drop, Finset.sum_map, Fintype.sum_prod_type]
  rfl
/-- The same at the feature index built from its coordinate. -/
theorem hostReduceAdd_rows_ix1 (hr : S4x4096x2048.ReducesTo [0, 1] S2048) (x : S4x4096x2048.Idx → EReal) (init : EReal)
    (h : Fin 2048) :
    Ideal.hostReduceAdd hr x init (ix1 h) = init + ∑ b : Fin 4, ∑ s : Fin 4096, x (ix3 b s h) :=
  hostReduceAdd_rows hr x init (ix1 h)

/-! ## The shift gradient -/

/-- The reference's third result is the column sums of the upstream gradient. -/
theorem ref_gb (x0 : (⟨S4x4096x2048, .f32⟩ : BufTy).Contents (Elt Ideal)) :
    Read.val_main_v42 (F := Ideal) x0 = GB x0 := by
  funext j
  obtain ⟨h, rfl⟩ : ∃ h : Fin 2048, j = ix1 h := ⟨j 0, eq_ix1 j⟩
  unfold Read.val_main_v42
  simp only [Host.reduceAdd, Ideal.hostReduceAdd_def]
  rw [hostReduceAdd_rows_ix1]
  rfl

/-! ## Where each broadcast and each row sum reads its operand -/

section Indices

variable (b : Fin 4) (s : Fin 4096) (h k : Fin 2048)

/-- A per-row value broadcast along the features is read at `(b, s, 0)`. -/
theorem idx_v4 : Read.idx_main_v4 (ix3 b s h) = ix3 b s (0 : Fin 1) :=
  funext fun a => Fin.ext (by match a with | ⟨0, _⟩ => rfl | ⟨1, _⟩ => rfl | ⟨2, _⟩ => rfl)
theorem idx_v11 : Read.idx_main_v11 (ix3 b s h) = ix3 b s (0 : Fin 1) :=
  funext fun a => Fin.ext (by match a with | ⟨0, _⟩ => rfl | ⟨1, _⟩ => rfl | ⟨2, _⟩ => rfl)
theorem idx_v16 : Read.idx_main_v16 (ix3 b s h) = ix3 b s (0 : Fin 1) :=
  funext fun a => Fin.ext (by match a with | ⟨0, _⟩ => rfl | ⟨1, _⟩ => rfl | ⟨2, _⟩ => rfl)
theorem idx_v26 : Read.idx_main_v26 (ix3 b s h) = ix3 b s (0 : Fin 1) :=
  funext fun a => Fin.ext (by match a with | ⟨0, _⟩ => rfl | ⟨1, _⟩ => rfl | ⟨2, _⟩ => rfl)
theorem idx_v30 : Read.idx_main_v30 (ix3 b s h) = ix3 b s (0 : Fin 1) :=
  funext fun a => Fin.ext (by match a with | ⟨0, _⟩ => rfl | ⟨1, _⟩ => rfl | ⟨2, _⟩ => rfl)
theorem idx_v35 : Read.idx_main_v35 (ix3 b s h) = ix3 b s (0 : Fin 1) :=
  funext fun a => Fin.ext (by match a with | ⟨0, _⟩ => rfl | ⟨1, _⟩ => rfl | ⟨2, _⟩ => rfl)
theorem idx_v39 : Read.idx_main_v39 (ix3 b s h) = ix3 b s (0 : Fin 1) :=
  funext fun a => Fin.ext (by match a with | ⟨0, _⟩ => rfl | ⟨1, _⟩ => rfl | ⟨2, _⟩ => rfl)
/-- The scale vector broadcast over the rows is read at `h`: first as a `[1, 1, 2048]` array at `(0, 0, h)`. -/
theorem idx_v2 : Read.idx_main_v2 (ix3 b s h) = ix3 (0 : Fin 1) (0 : Fin 1) h :=
  funext fun a => Fin.ext (by match a with | ⟨0, _⟩ => rfl | ⟨1, _⟩ => rfl | ⟨2, _⟩ => rfl)
theorem idx_v1 : Read.idx_main_v1 (ix3 (0 : Fin 1) (0 : Fin 1) h) = ix1 h :=
  funext fun a => Fin.ext (by match a with | ⟨0, _⟩ => rfl)
/-- A row sum kept as a `[4, 4096, 1]` column is read at `(b, s)`. -/
theorem idx_v14 : Read.idx_main_v14 (ix3 b s (0 : Fin 1)) = ix2 b s :=
  funext fun a => Fin.ext (by match a with | ⟨0, _⟩ => rfl | ⟨1, _⟩ => rfl)
theorem idx_v19 : Read.idx_main_v19 (ix3 b s (0 : Fin 1)) = ix2 b s :=
  funext fun a => Fin.ext (by match a with | ⟨0, _⟩ => rfl | ⟨1, _⟩ => rfl)
theorem idx_v23 : Read.idx_main_v23 (ix3 b s (0 : Fin 1)) = ix2 b s :=
  funext fun a => Fin.ext (by match a with | ⟨0, _⟩ => rfl | ⟨1, _⟩ => rfl)
/-- The row sum at `(b, s)` runs over the entries `(b, s, k)`. -/
theorem idx_v13 : Read.idx_main_v13 (ix2 b s) k = ix3 b s k :=
  funext fun a => Fin.ext (by match a with | ⟨0, _⟩ => rfl | ⟨1, _⟩ => rfl | ⟨2, _⟩ => rfl)
theorem idx_v18 : Read.idx_main_v18 (ix2 b s) k = ix3 b s k :=
  funext fun a => Fin.ext (by match a with | ⟨0, _⟩ => rfl | ⟨1, _⟩ => rfl | ⟨2, _⟩ => rfl)
theorem idx_v22 : Read.idx_main_v22 (ix2 b s) k = ix3 b s k :=
  funext fun a => Fin.ext (by match a with | ⟨0, _⟩ => rfl | ⟨1, _⟩ => rfl | ⟨2, _⟩ => rfl)

end Indices

/-! ## The scale gradient -/

/-- The reference's second result is, per column, the sum over the rows of `(dy · x̂) · r`. -/
theorem ref_gg (x0 x1 x2 : (⟨S4x4096x2048, .f32⟩ : BufTy).Contents (Elt Ideal))
    (x3 x4 : (⟨S4x4096x1, .f32⟩ : BufTy).Contents (Elt Ideal)) :
    Read.val_main_v41 (F := Ideal) x0 x1 x2 x3 x4 = GG x0 x1 x2 x3 x4 := by
  funext j
  obtain ⟨h, rfl⟩ : ∃ h : Fin 2048, j = ix1 h := ⟨j 0, eq_ix1 j⟩
  unfold Read.val_main_v41
  simp only [Host.reduceAdd, Ideal.hostReduceAdd_def]
  rw [hostReduceAdd_rows_ix1]
  simp only [Read.val_main_v40_apply, Read.val_main_v38_apply, Read.val_main_v39_apply, Read.val_main_v5_apply,
    Read.val_main_v0_apply, Read.val_main_v4_apply, Read.val_main_cst_6_apply]
  simp only [idx_v39, idx_v4, Ideal.mulf_def, Ideal.addf_def, Ideal.subf_def, Ideal.ofBits_def]
  rfl

/-! ## The input gradient -/

/-- The reference's first result at `(b, s, h)` is the row formula of row `(b, s)` at column `h`. -/
theorem ref_gx (x0 x1 x2 : (⟨S4x4096x2048, .f32⟩ : BufTy).Contents (Elt Ideal))
    (x3 x4 : (⟨S4x4096x1, .f32⟩ : BufTy).Contents (Elt Ideal)) (x5 : (⟨S2048, .f32⟩ : BufTy).Contents (Elt Ideal))
    (x6 : (⟨S4x4096x2048, .f32⟩ : BufTy).Contents (Elt Ideal)) :
    Read.val_main_v37 (F := Ideal) x0 x1 x2 x3 x4 x5 x6 = GX x0 x1 x2 x3 x4 x5 x6 := by
  funext i
  obtain ⟨b, s, h, rfl⟩ : ∃ (b : Fin 4) (s : Fin 4096) (h : Fin 2048), i = ix3 b s h := ⟨i 0, i 1, i 2, eq_ix3 i⟩
  simp only [Read.val_main_v37_apply, Read.val_main_v36_apply, Read.val_main_v32_apply, Read.val_main_v27_apply,
    Read.val_main_v3_apply, Read.val_main_v2_apply, Read.val_main_v1_apply, Read.val_main_v26_apply,
    Read.val_main_v31_apply, Read.val_main_v30_apply, Read.val_main_v29_apply, Read.val_main_v14_apply,
    Read.val_main_v13_apply, Read.val_main_v12_apply, Read.val_main_v8_apply, Read.val_main_v7_apply,
    Read.val_main_v6_apply, Read.val_main_v5_apply, Read.val_main_v0_apply, Read.val_main_v4_apply,
    Read.val_main_v11_apply, Read.val_main_v10_apply, Read.val_main_v9_apply, Read.val_main_v28_apply,
    Read.val_main_v35_apply, Read.val_main_v34_apply, Read.val_main_v25_apply, Read.val_main_v19_apply,
    Read.val_main_v18_apply, Read.val_main_v17_apply, Read.val_main_v15_apply, Read.val_main_v16_apply,
    Read.val_main_v24_apply, Read.val_main_v21_apply, Read.val_main_v20_apply, Read.val_main_v23_apply,
    Read.val_main_v22_apply, Read.val_main_v33_apply, Read.val_main_cst_apply, Read.val_main_cst_0_apply,
    Read.val_main_cst_1_apply, Read.val_main_cst_2_apply, Read.val_main_cst_3_apply, Read.val_main_cst_4_apply,
    Read.val_main_cst_5_apply]
  simp only [idx_v4, idx_v11, idx_v16, idx_v26, idx_v30, idx_v35, idx_v2, idx_v1, idx_v14, idx_v19, idx_v23, idx_v13,
    idx_v18, idx_v22, Ideal.mulf_def, Ideal.addf_def, Ideal.subf_def, Ideal.hostNegf_def, Ideal.negf_def,
    Ideal.ofBits_def]
  rfl

end Cert.LnBwd.RefSide

end
-- ==== Proof.Finite.lean ====
/-
  FROM THE PRECONDITION TO REAL NUMBERS. The precondition says of each of seven float arrays that every entry's absolute
  value is below +∞ (`jnp.all(|x| < +inf)`), the seven statements and-ed together. At the ideal instance a float is an
  extended real, its absolute value is `max x (-x)`, and the pattern 0x7F800000 denotes `⊤`. An extended real whose
  absolute value is below `⊤` is neither `⊤` (then `max ⊤ (-⊤) = ⊤`) nor `⊥` (then `max ⊥ (-⊥) = max ⊥ ⊤ = ⊤`): it is
  a real number. A reduction by `and` over all axes that came out 1 met a 1 at every index, so the element fact holds at
  every index of every array; a conjunction of one-bit words that is 1 has both its words 1, which splits the seven.
-/
import proofs.«163792_j60713657697040_2_alg».proof.Pre_finite_inputs
import proofs.«163792_j60713657697040_2_alg».proof.Proof.Gen.Pre_finite_inputs
import Idealize.ShloMosaic.Lib.ReduceAll
import Idealize.ShloMosaic.Lib.ValueIdx
import Idealize.ShloMosaic.PureOps.Ideal

noncomputable section

namespace Cert.LnBwd.Finite

open Idealize.ShloMosaic Cert.Pre_finite_inputs

/-- The scalar shape has one index: an index is a function out of the empty set of axes. -/
instance subsingleton_scalar_idx : Subsingleton S_.Idx := ⟨fun a b => funext fun d => d.elim0⟩

/-- The pattern 0x7F800000 (sign 0, exponent all ones, significand 0) denotes +∞. -/
theorem ofBits_inf : Ideal.ofBits .f32 0x7F800000#32 = ⊤ := by simp [Ideal.ofBits, Ideal.ieee]

/-- An extended real whose absolute value `max x (-x)` is below +∞ is a real number: at `⊤` the maximum is `⊤`, and at
    `⊥` it is `-⊥ = ⊤`. -/
theorem real_of_abs_lt_top (x : EReal) (h : max x (-x) < ⊤) : ∃ a : ℝ, x = (a : EReal) := by
  induction x using EReal.rec with
  | bot => simp at h
  | coe a => exact ⟨a, rfl⟩
  | top => simp at h

/-- The element fact: the comparison `|x| < +∞` answered 1, so `x` is a real number. -/
theorem real_of_cmp (x : Ideal .f32)
    (h : FloatOps.cmpf .olt (FloatOps.hostAbsf x) (FloatOps.ofBits (F := Ideal) .f32 0x7F800000#32) = 1#1) :
    ∃ a : ℝ, x = (a : EReal) := by
  change Ideal.cmp .olt (max (x : EReal) (-(x : EReal))) (Ideal.ofBits .f32 0x7F800000#32) = 1#1 at h
  rw [ofBits_inf] at h
  refine real_of_abs_lt_top x ?_
  by_contra hn
  simp [Ideal.cmp, hn] at h

/-- One array: `jnp.all(|x| < +inf)` answered 1, so every entry of `x` is a real number. The reduction runs over all
    axes into the scalar shape, which has one index, so every entry reduces into the result. -/
theorem real_of_all {s : Shape} {axes : List (Fin s.rank)}
    (hb : S_.BroadcastsInDim s (![] : Fin 0 → Fin s.rank)) (hr : s.ReducesTo axes S_) (hu : 0 < S_.numel)
    (x : FVec Ideal s .f32)
    (e : Host.reduce IntOp.andi
          (cmpf .olt (Host.absf x) (broadcastInDim s ![] hb (constant (F := Ideal) S_ .f32 0x7F800000#32)))
          (constantI S_ 1 1#1) hr hu ValueIdx.ix0 = 1#1) :
    ∀ i, ∃ a : ℝ, x i = (a : EReal) := fun i =>
  real_of_cmp (x i) (Host.reduce_andi_all _ _ hr hu _ e i)

/-- THE PRECONDITION DECODED: every entry of each of the seven arrays is a real number. -/
theorem real_of_pre_all [Cert.Pre_finite_inputs.Facts]
    (x0 x1 x2 : FVec Ideal Cert.Pre_finite_inputs.S4x4096x2048 .f32)
    (x3 x4 : FVec Ideal Cert.Pre_finite_inputs.S4x4096x1 .f32)
    (x5 : FVec Ideal Cert.Pre_finite_inputs.S2048 .f32)
    (x6 : FVec Ideal Cert.Pre_finite_inputs.S4x4096x2048 .f32)
    (h : Cert.Pre_finite_inputs.fn (F := Ideal) x0 x1 x2 x3 x4 x5 x6 = fun _ => 1#1) :
    (∀ i, ∃ a : ℝ, x0 i = (a : EReal)) ∧ (∀ i, ∃ a : ℝ, x3 i = (a : EReal)) ∧ (∀ i, ∃ a : ℝ, x5 i = (a : EReal))
      ∧ (∀ i, ∃ a : ℝ, x1 i = (a : EReal)) ∧ (∀ i, ∃ a : ℝ, x2 i = (a : EReal))
      ∧ (∀ i, ∃ a : ℝ, x4 i = (a : EReal)) ∧ (∀ i, ∃ a : ℝ, x6 i = (a : EReal)) := by
  have e := congrFun h ValueIdx.ix0
  dsimp only [Cert.Pre_finite_inputs.fn, Cert.Pre_finite_inputs.fn_part1] at e
  -- the result is ((((((p0 ∧ p1) ∧ p2) ∧ p3) ∧ p4) ∧ p5) ∧ p6), each pk one array's `jnp.all`
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨real_of_all _ _ _ x0 h0, real_of_all _ _ _ x3 h3, real_of_all _ _ _ x5 h5,
    real_of_all _ _ _ x1 h1, real_of_all _ _ _ x2 h2, real_of_all _ _ _ x4 h4, real_of_all _ _ _ x6 h6⟩

/-- The three arrays the law reads: every entry of arguments 0, 3 and 5 is a real number. -/
theorem real_of_pre [Cert.Pre_finite_inputs.Facts]
    (x0 x1 x2 : FVec Ideal Cert.Pre_finite_inputs.S4x4096x2048 .f32)
    (x3 x4 : FVec Ideal Cert.Pre_finite_inputs.S4x4096x1 .f32)
    (x5 : FVec Ideal Cert.Pre_finite_inputs.S2048 .f32)
    (x6 : FVec Ideal Cert.Pre_finite_inputs.S4x4096x2048 .f32)
    (h : Cert.Pre_finite_inputs.fn (F := Ideal) x0 x1 x2 x3 x4 x5 x6 = fun _ => 1#1) :
    (∀ i, ∃ a : ℝ, x0 i = (a : EReal)) ∧ (∀ i, ∃ a : ℝ, x3 i = (a : EReal)) ∧ (∀ i, ∃ a : ℝ, x5 i = (a : EReal)) :=
  have hall := real_of_pre_all x0 x1 x2 x3 x4 x5 x6 h
  ⟨hall.1, hall.2.1, hall.2.2.1⟩

end Cert.LnBwd.Finite

end
-- ==== Proof.Pieces.lean ====
/-
  What the body leaves in its three output blocks, as values of its input blocks.

  At every grid point the body stores ONE whole block into each output: the input-gradient block (a function of the
  seven input blocks alone), and the two running column sums, each "what the block held, plus this tile's column sum".
  At the first point of a core's sweep the body first stores zeros and reads them back, so there the running sums
  start from the zero block; at the other points they continue from what the point before left.
-/
import proofs.«163792_j60713657697040_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.LnBwd.Kernel

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The input-gradient block, from the seven input blocks of a tile of 256 rows. -/
def gxBlock (x0 x1 x2 : Vec F S256x2048 .f32) (x3 x4 : Vec F S256x1 .f32) (x5 : Vec F S1x2048 .f32) (x6 : Vec F S256x2048 .f32) :
    Vec F S256x2048 .f32 :=
  k0_pay1 (k0_pay8 x1 x2 x4) (k0_pay9 x0 x3 x5) (k0_pay10 x0 x1 x2 x3 x4 x5) (k0_pay11 x1 x2 x4) (k0_pay12 x0 x3 x5) k0_pay13 x6

/-- One step of the scale gradient's running sum: the block `acc` plus this tile's column sums of `dy · x̂ · r`, on all 8 sublanes. -/
def ggStep (x0 x1 x2 : Vec F S256x2048 .f32) (x3 x4 : Vec F S256x1 .f32) (acc : Vec F S1x8x2048 .f32) : Vec F S1x8x2048 .f32 :=
  k0_pay2 (k0_pay6 x0) (k0_pay7 x3) (k0_pay8 x1 x2 x4) acc

/-- One step of the shift gradient's running sum: the block `acc` plus this tile's column sums of `dy`. -/
def gbStep (x0 : Vec F S256x2048 .f32) (acc : Vec F S1x8x2048 .f32) : Vec F S1x8x2048 .f32 :=
  k0_pay3 (k0_pay6 x0) acc

/-- The zero block a core's sweep starts its running sums from. -/
abbrev zeroAcc : Vec F S1x8x2048 .f32 := broadcast S1x8x2048 (Scalar.ofBits .f32 0x00000000#32)

variable (c : Dev nD) (i : grid0.Coords)
  (a2 : Memref sig .tc .vmem S256x2048 .f32) (h2 : a2.IsWhole) (a3 : Memref sig .tc .vmem S256x2048 .f32) (h3 : a3.IsWhole)
  (a4 : Memref sig .tc .vmem S256x2048 .f32) (h4 : a4.IsWhole) (a5 : Memref sig .tc .vmem S256x1 .f32) (h5 : a5.IsWhole)
  (a6 : Memref sig .tc .vmem S256x1 .f32) (h6 : a6.IsWhole) (a7 : Memref sig .tc .vmem S1x2048 .f32) (h7 : a7.IsWhole)
  (a8 : Memref sig .tc .vmem S256x2048 .f32) (h8 : a8.IsWhole) (a9 : Memref sig .tc .vmem S256x2048 .f32) (h9 : a9.IsWhole)
  (a10 : Memref sig .tc .vmem S1x8x2048 .f32) (h10 : a10.IsWhole) (a11 : Memref sig .tc .vmem S1x8x2048 .f32) (h11 : a11.IsWhole)
  (x0 x1 x2 : Vec F S256x2048 .f32) (x3 x4 : Vec F S256x1 .f32) (x5 : Vec F S1x2048 .f32) (x6 : Vec F S256x2048 .f32)
  (xo8 xo9 : Vec F S1x8x2048 .f32)

/-! ## A point that continues a sweep -/

theorem out_B_7 (hc : ¬cond0_0 i) :
    out0_B_7 c i a2 h2 a3 h3 a4 h4 a5 h5 a6 h6 a7 h7 a8 h8 a9 h9 a10 h10 a11 h11 hc x0 x1 x2 x3 x4 x5 x6 xo8 xo9 = gxBlock x0 x1 x2 x3 x4 x5 x6 := by
  unfold out0_B_7
  rw [View.read_writes_eq_canon _ _ _ (cover0_B_7 c i a2 h2 a3 h3 a4 h4 a5 h5 a6 h6 a7 h7 a8 h8 a9 h9 a10 h10 a11 h11 hc x0 x1 x2 x3 x4 x5 x6 xo8 xo9)]
  unfold kernelRun0_B
  dsimp only
  sl_unfold_words
  rw [View.canon_unit_zero hz2]
  simp only [View.readAt_eq_ld, h2.read_unread, h3.read_unread, h4.read_unread, h5.read_unread, h6.read_unread, h7.read_unread,
    h8.read_unread, View.ld_unit_zero (S := S256x2048) hz2, View.ld_unit_zero (S := S256x1) hz2, View.ld_unit_zero (S := S1x2048) hz2]
  rfl

theorem out_B_8 (hc : ¬cond0_0 i) :
    out0_B_8 c i a2 h2 a3 h3 a4 h4 a5 h5 a6 h6 a7 h7 a8 h8 a9 h9 a10 h10 a11 h11 hc x0 x1 x2 x3 x4 x5 x6 xo8 xo9 = ggStep x0 x1 x2 x3 x4 xo8 := by
  unfold out0_B_8
  rw [View.read_writes_eq_canon _ _ _ (cover0_B_8 c i a2 h2 a3 h3 a4 h4 a5 h5 a6 h6 a7 h7 a8 h8 a9 h9 a10 h10 a11 h11 hc x0 x1 x2 x3 x4 x5 x6 xo8 xo9)]
  unfold kernelRun0_B
  dsimp only
  sl_unfold_words
  rw [View.canon_unit_zero hz3]
  simp only [View.readAt_eq_ld, h2.read_unread, h3.read_unread, h4.read_unread, h5.read_unread, h6.read_unread, h7.read_unread,
    h8.read_unread, h10.read_unread, View.ld_unit_zero (S := S256x2048) hz2, View.ld_unit_zero (S := S256x1) hz2,
    View.ld_unit_zero (S := S1x2048) hz2, View.ld_unit_zero (S := S1x8x2048) hz3]
  rfl

theorem out_B_9 (hc : ¬cond0_0 i) :
    out0_B_9 c i a2 h2 a3 h3 a4 h4 a5 h5 a6 h6 a7 h7 a8 h8 a9 h9 a10 h10 a11 h11 hc x0 x1 x2 x3 x4 x5 x6 xo8 xo9 = gbStep x0 xo9 := by
  unfold out0_B_9
  rw [View.read_writes_eq_canon _ _ _ (cover0_B_9 c i a2 h2 a3 h3 a4 h4 a5 h5 a6 h6 a7 h7 a8 h8 a9 h9 a10 h10 a11 h11 hc x0 x1 x2 x3 x4 x5 x6 xo8 xo9)]
  unfold kernelRun0_B
  dsimp only
  sl_unfold_words
  rw [View.canon_unit_zero hz3]
  simp only [View.readAt_eq_ld, h2.read_unread, h11.read_unread, View.ld_unit_zero (S := S256x2048) hz2,
    View.ld_unit_zero (S := S1x8x2048) hz3]
  rfl

/-! ## The first point of a sweep -/

theorem out_A_7 (hc : cond0_0 i) :
    out0_A_7 c i a2 h2 a3 h3 a4 h4 a5 h5 a6 h6 a7 h7 a8 h8 a9 h9 a10 h10 a11 h11 hc x0 x1 x2 x3 x4 x5 x6 = gxBlock x0 x1 x2 x3 x4 x5 x6 := by
  unfold out0_A_7
  rw [View.read_writes_eq_canon _ _ _ (cover0_A_7 c i a2 h2 a3 h3 a4 h4 a5 h5 a6 h6 a7 h7 a8 h8 a9 h9 a10 h10 a11 h11 hc x0 x1 x2 x3 x4 x5 x6)]
  unfold kernelRun0_A
  dsimp only
  sl_unfold_words
  rw [View.canon_unit_zero hz2]
  simp only [View.readAt_eq_ld, h2.read_unread, h3.read_unread, h4.read_unread, h5.read_unread, h6.read_unread, h7.read_unread,
    h8.read_unread, View.ld_unit_zero (S := S256x2048) hz2, View.ld_unit_zero (S := S256x1) hz2, View.ld_unit_zero (S := S1x2048) hz2]
  rfl

theorem out_A_8 (hc : cond0_0 i) :
    out0_A_8 c i a2 h2 a3 h3 a4 h4 a5 h5 a6 h6 a7 h7 a8 h8 a9 h9 a10 h10 a11 h11 hc x0 x1 x2 x3 x4 x5 x6 = ggStep x0 x1 x2 x3 x4 zeroAcc := by
  unfold out0_A_8
  rw [View.read_writes_eq_canon _ _ _ (cover0_A_8 c i a2 h2 a3 h3 a4 h4 a5 h5 a6 h6 a7 h7 a8 h8 a9 h9 a10 h10 a11 h11 hc x0 x1 x2 x3 x4 x5 x6)]
  unfold kernelRun0_A
  dsimp only
  sl_unfold_words
  rw [View.canon_cons_unit_zero (S := S1x8x2048) hz3, View.readCov_unit_zero (S := S1x8x2048) _ hz3]
  simp only [View.readAt_eq_ld, h2.read_unread, h3.read_unread, h4.read_unread, h5.read_unread, h6.read_unread, h7.read_unread,
    h8.read_unread, View.ld_unit_zero (S := S256x2048) hz2, View.ld_unit_zero (S := S256x1) hz2,
    View.ld_unit_zero (S := S1x2048) hz2, View.ld_unit_zero (S := S1x8x2048) hz3]
  rfl

theorem out_A_9 (hc : cond0_0 i) :
    out0_A_9 c i a2 h2 a3 h3 a4 h4 a5 h5 a6 h6 a7 h7 a8 h8 a9 h9 a10 h10 a11 h11 hc x0 x1 x2 x3 x4 x5 x6 = gbStep x0 zeroAcc := by
  unfold out0_A_9
  rw [View.read_writes_eq_canon _ _ _ (cover0_A_9 c i a2 h2 a3 h3 a4 h4 a5 h5 a6 h6 a7 h7 a8 h8 a9 h9 a10 h10 a11 h11 hc x0 x1 x2 x3 x4 x5 x6)]
  unfold kernelRun0_A
  dsimp only
  sl_unfold_words
  rw [View.canon_cons_unit_zero (S := S1x8x2048) hz3, View.readCov_unit_zero (S := S1x8x2048) _ hz3]
  simp only [View.readAt_eq_ld, h2.read_unread, View.ld_unit_zero (S := S256x2048) hz2, View.ld_unit_zero (S := S1x8x2048) hz3]
  rfl

end Cert.LnBwd.Kernel

end
-- ==== Proof.Sweep.lean ====
/-
  What the three output blocks hold after each grid point.

  The 64 points are two sweeps of 32 (one per core), point `t` handling tile `t` of 256 rows. After point `t` the
  input-gradient block holds tile `t`'s block; each running column sum holds, at the first point of a sweep, the zero
  block plus that tile's column sums, and at every later point what the point before left plus its own tile's. So at
  the last point of a sweep — the only one that writes the sums back — each running sum is the fold of its step over
  the sweep's 32 tiles, starting from zero.
-/
import proofs.«163792_j60713657697040_2_alg».proof.Proof.Pieces

noncomputable section

open Idealize.ShloMosaic Idealize.ShloMosaic.TcCoe Idealize.SL.Sem
open Idealize.ShloMosaic.Pipeline (Dat accAt)

namespace Cert.LnBwd.Kernel

open Cert.KernelIdeal Cert.KernelIdeal.Gen

variable {F : FTy → Type} [FloatOps F]
variable (m : (ℓ : Loc nD τ sig) → Buf (Elt F) ℓ) (c : Dev nD)

/-- Tile `t`'s input-gradient block, from the seven input blocks the windows hold at point `t`. -/
def gxPt (t : Fin cfg0.N) : Vec F S256x2048 .f32 := gxBlock (iblk m c 0 t) (iblk m c 1 t) (iblk m c 2 t) (iblk m c 3 t) (iblk m c 4 t) (iblk m c 5 t) (iblk m c 6 t)
/-- Tile `t`'s step of the scale gradient's running sum. -/
def ggPt (t : Fin cfg0.N) (acc : Vec F S1x8x2048 .f32) : Vec F S1x8x2048 .f32 :=
  ggStep (iblk m c 0 t) (iblk m c 1 t) (iblk m c 2 t) (iblk m c 3 t) (iblk m c 4 t) acc
/-- Tile `t`'s step of the shift gradient's running sum. -/
def gbPt (t : Fin cfg0.N) (acc : Vec F S1x8x2048 .f32) : Vec F S1x8x2048 .f32 := gbStep (iblk m c 0 t) acc

/-- After the first point of a sweep: the tile's block, and the two sums started from zero. -/
theorem outs_first (t : Fin cfg0.N) (h0 : t.val % 32 = 0) :
    outsAt0 m c t.val t.isLt = (gxPt m c t, ggPt m c t zeroAcc, gbPt m c t zeroAcc) := by
  rw [outsAt0_A m c t h0]
  exact congrArg₂ Prod.mk
    (out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) ((hcond0_0 t).mpr h0))
    (congrArg₂ Prod.mk
      (out_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) ((hcond0_0 t).mpr h0))
      (out_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) ((hcond0_0 t).mpr h0)))

/-- After a later point of a sweep: the tile's block, and the two sums continued from the point before. -/
theorem outs_next (t : Fin cfg0.N) (h0 : ¬t.val % 32 = 0) :
    outsAt0 m c t.val t.isLt
      = (gxPt m c t,
         ggPt m c t (outsAt0 m c (t.val - 1) (Nat.lt_of_le_of_lt (Nat.sub_le _ _) t.isLt)).2.1,
         gbPt m c t (outsAt0 m c (t.val - 1) (Nat.lt_of_le_of_lt (Nat.sub_le _ _) t.isLt)).2.2) := by
  rw [outsAt0_B m c t h0]
  exact congrArg₂ Prod.mk
    (out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) _ _ (fun h => h0 ((hcond0_0 t).mp h)))
    (congrArg₂ Prod.mk
      (out_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) _ _ (fun h => h0 ((hcond0_0 t).mp h)))
      (out_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) _ _ (fun h => h0 ((hcond0_0 t).mp h))))

/-- The input-gradient block after point `t` is tile `t`'s, at every point. -/
theorem outs_gx (t : Fin cfg0.N) : (outsAt0 m c t.val t.isLt).1 = gxPt m c t := by
  by_cases h0 : t.val % 32 = 0
  · rw [outs_first m c t h0]
  · rw [outs_next m c t h0]

/-- The scale gradient's running sum after point `t`: the fold of the step over the sweep's tiles up to `t`, from zero. -/
theorem outs_gg (t : Fin cfg0.N) (h' : 32 * (t.val / 32) + t.val % 32 < cfg0.N) :
    (outsAt0 m c t.val t.isLt).2.1
      = accAt (fun n h => ggPt m c ⟨n, h⟩ zeroAcc) (fun n h acc => ggPt m c ⟨n, h⟩ acc) (32 * (t.val / 32)) (t.val % 32) h' :=
  Pipeline.eq_accAt_of_mod (fun n h => (outsAt0 m c n h).2.1) 32 _ _
    (fun n h h0 => congrArg (fun r => r.2.1) (outs_first m c ⟨n, h⟩ h0))
    (fun n h hne => congrArg (fun r => r.2.1) (outs_next m c ⟨n + 1, h⟩ hne))
    (by decide) t.val t.isLt h'

/-- The shift gradient's running sum after point `t`, likewise. -/
theorem outs_gb (t : Fin cfg0.N) (h' : 32 * (t.val / 32) + t.val % 32 < cfg0.N) :
    (outsAt0 m c t.val t.isLt).2.2
      = accAt (fun n h => gbPt m c ⟨n, h⟩ zeroAcc) (fun n h acc => gbPt m c ⟨n, h⟩ acc) (32 * (t.val / 32)) (t.val % 32) h' :=
  Pipeline.eq_accAt_of_mod (fun n h => (outsAt0 m c n h).2.2) 32 _ _
    (fun n h h0 => congrArg (fun r => r.2.2) (outs_first m c ⟨n, h⟩ h0))
    (fun n h hne => congrArg (fun r => r.2.2) (outs_next m c ⟨n + 1, h⟩ hne))
    (by decide) t.val t.isLt h'

end Cert.LnBwd.Kernel

end
-- ==== Proof.LibKeepdims.lean ====
/-
  A reduction along the last axis of an `[a, b]` array that keeps its dimension (`keepdims=True`): the `[a]` result is
  re-laid as a column `[a, 1]` and the column is spread back over the `b` lanes of every row. Read at an index, the
  column at `(i, u)` is the vector at `i`, the spread column at `(p, c)` is the column at `(p, 0)`, and the source
  index that a one-axis reduction along axis 1 visits for row `p` and coordinate `k` is `(p, k)`. Stated for any
  extents `a`, `b` and any element type.
-/
import Idealize.ShloMosaic.Lib.Pipeline.Value
import Idealize.ShloMosaic.Lib.ValueIdx
import Idealize.ShloMosaic.PureOps.Reduce

namespace Cert.Lib.Keepdims

open Idealize.ShloMosaic Idealize.ShloMosaic.ValueIdx

variable {α : Type}

/-- An `[a]` vector cast to the column `[a, 1]` reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector re-laid as a column and spread over the lanes reads, at `(p, c)`, the vector at `p`. -/
theorem column_spread_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-- A one-axis reduction of `[a, b]` along axis 1 visits, for row `p` and coordinate `k` of the reduced axis, the
    source index `(p, k)`. -/
theorem lift_axis1 {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

end Cert.Lib.Keepdims
-- ==== Proof.LibColumnSum.lean ====
/-
  Three general readings used when a kernel sums a column of per-row terms.

  * A one-axis reduction of an `[a, b]` array along axis 0 visits, for column `q` and coordinate `k` of the reduced
    axis, the source index `(k, q)` (the axis-1 companion is the index `(p, k)`).
  * A lane slice `[0:n, o:o+b]` of an `[n, a]` array reads, at `(k, c)`, the array at `(k, o + c)`: any extents, any
    offset, any element type.
  * On the extended reals negation does not pass through a sum in general (-(⊤ + ⊥) = ⊤ while -⊤ + -⊥ = ⊥), but a
    finite sum of terms none of which is +∞ is not +∞ and its negation is the sum of the negations.
-/
import Idealize.ShloMosaic.Lib.Pipeline.Value
import Idealize.ShloMosaic.Lib.ValueIdx
import Idealize.ShloMosaic.PureOps.Reduce

open scoped BigOperators

namespace Cert.Lib.ColumnSum

open Idealize.ShloMosaic Idealize.ShloMosaic.ValueIdx

/-- A one-axis reduction of `[a, b]` along axis 0 visits, for column `q` and coordinate `k`, the source index `(k, q)`. -/
theorem lift_axis0 {a b : ℕ} (h : (⟨2, ![a, b]⟩ : Shape).Reduces [0] ⟨1, ![b]⟩) (q : Fin b) (k : Fin a) :
    h.lift (ix1 q) k = ix2 k q :=
  funext fun c => Fin.ext (by match c with | ⟨0, _⟩ => rfl | ⟨1, _⟩ => rfl)

/-- A lane slice `[0:n, o:o+b]` of an `[n, a]` array reads, at `(k, c)`, the array at `(k, o + c)`. -/
theorem laneSlice_apply {α : Type} {n a b o : ℕ} (x : (⟨2, ![n, a]⟩ : Shape).Idx → α)
    (h : (⟨2, ![n, a]⟩ : Shape).Slices ![0, o] ⟨2, ![n, b]⟩) (k : Fin n) (c : Fin b) (c' : Fin a) (hc : c'.val = o + c.val) :
    extractStridedSlice ⟨2, ![n, b]⟩ ![0, o] x h (ix2 k c) = x (ix2 k c') :=
  extractStridedSlice_apply ![0, o] x h (ix2 k c) (ix2 k c') fun ax => by
    match ax with
    | ⟨0, _⟩ => show k.val = 0 + k.val; omega
    | ⟨1, _⟩ => exact hc

/-- A finite sum of extended reals none of which is +∞ is not +∞, and its negation is the sum of the negations. -/
theorem sum_neg_of_ne_top {ι : Type*} (s : Finset ι) (a : ι → EReal) (h : ∀ i ∈ s, a i ≠ ⊤) :
    ∑ i ∈ s, a i ≠ ⊤ ∧ ∑ i ∈ s, -(a i) = -(∑ i ∈ s, a i) := by
  classical
  induction s using Finset.induction_on with
  | empty => simp
  | insert i s hi ih =>
    have hs := ih (fun j hj => h j (Finset.mem_insert_of_mem hj))
    have hai := h i (Finset.mem_insert_self i s)
    rw [Finset.sum_insert hi, Finset.sum_insert hi]
    refine ⟨EReal.add_ne_top hai hs.1, ?_⟩
    rw [hs.2, EReal.neg_add (Or.inr hs.1) (Or.inl hai), sub_eq_add_neg]

end Cert.Lib.ColumnSum
-- ==== Proof.LibSublaneSpread.lean ====
/-
  Two layout readings and one regrouping of a sum, for kernels that keep a per-lane running sum on all sublanes of a
  `[1, n, b]` block and sum over rows that are numbered tile by tile.

  * A `[b]` vector re-laid as `[1, 1, b]` reads, at `(u, v, q)`, the vector at `q`.
  * A `[1, 1, b]` row spread over `n` sublanes, `[1, n, b]`, reads at `(u, s, q)` the row at lane `q`.
  * A sum over `ρ < a · b` is the double sum over `i < a` and `j < b` of the term at `b · i + j` (in any commutative monoid).
  Stated for any extents and any element type.
-/
import Idealize.ShloMosaic.Lib.Pipeline.Value
import Idealize.ShloMosaic.Lib.ValueIdx

open scoped BigOperators

namespace Cert.Lib.SublaneSpread

open Idealize.ShloMosaic Idealize.ShloMosaic.ValueIdx

/-- A vector re-laid as `[1, 1, b]` reads, at `(u, v, q)`, the vector at `q`: both are position `q` in row-major order. -/
theorem shapeCast_b_11b_apply {α : Type} {b : ℕ} (x : (⟨1, ![b]⟩ : Shape).Idx → α)
    (h : (⟨1, ![b]⟩ : Shape).ShapeCasts ⟨3, ![1, 1, b]⟩) (u v : Fin 1) (q : Fin b) :
    shapeCast ⟨3, ![1, 1, b]⟩ x h (ix3 u v q) = x (ix1 q) :=
  shapeCast_apply x h _ _ (by
    have hu : u.val = 0 := by omega
    have hv : v.val = 0 := by omega
    rw [Shape.rowMajor_val_three, Shape.rowMajor_val_one]
    show q.val = (u.val * 1 + v.val) * b + q.val
    rw [hu, hv]; omega)

/-- A `[1, 1, b]` row spread over `n` sublanes reads, at `(u, s, q)`, the row at lane `q`. -/
theorem broadcastTo_11b_1nb_apply {α : Type} {n b : ℕ} (v : (⟨3, ![1, 1, b]⟩ : Shape).Idx → α)
    (h : (⟨3, ![1, 1, b]⟩ : Shape).Broadcasts ⟨3, ![1, n, b]⟩) (u : Fin 1) (s : Fin n) (q : Fin b) :
    broadcastTo ⟨3, ![1, n, b]⟩ v h (ix3 u s q) = v (ix3 (0 : Fin 1) (0 : Fin 1) q) := by
  refine broadcastTo_apply v h (ix3 u s q) (ix3 (0 : Fin 1) (0 : Fin 1) q) fun ax => ?_
  match ax with
  | ⟨0, _⟩ => rfl
  | ⟨1, _⟩ => rfl
  | ⟨2, _⟩ =>
    show q.val = if b = 1 then 0 else q.val
    split
    · have := q.isLt; omega
    · rfl

/-- A sum over `ρ < a · b` is the double sum over `i < a`, `j < b` of the term at `b i + j`. -/
theorem sum_range_mul {M : Type*} [AddCommMonoid M] (f : ℕ → M) (a b : ℕ) :
    ∑ ρ ∈ Finset.range (a * b), f ρ = ∑ i ∈ Finset.range a, ∑ j ∈ Finset.range b, f (b * i + j) := by
  induction a with
  | zero => simp
  | succ a ih => rw [Nat.succ_mul, Finset.sum_range_add, ih, Finset.sum_range_succ, Nat.mul_comm a b]

end Cert.Lib.SublaneSpread
-- ==== Proof.KernelIdx.lean ====
/-
  The body's arithmetic read at one entry, on the extended reals.

  A tile holds 256 rows. Row `p` of the tile sees its own entries of `dy`, `x1`, `x2`, `dsum` (lanes `k`), its own
  `rstd` and `mean` (one number each) and the shared scale row. Every row reduction of the body is a sum over the 2048
  lanes of row `p`; every keep-dimension column is read back at its row; so the stored input-gradient block at `(p, q)`
  is the row formula of row `p` at lane `q`, in the arrangement that negates the sum. The two running column sums add,
  at lane `q` of every sublane, the sum over the tile's 256 rows of that row's term.
-/
import proofs.«163792_j60713657697040_2_alg».proof.Proof.Pieces
import proofs.«163792_j60713657697040_2_alg».proof.Proof.Spec
import proofs.«163792_j60713657697040_2_alg».proof.Proof.LibKeepdims
import proofs.«163792_j60713657697040_2_alg».proof.Proof.LibColumnSum
import proofs.«163792_j60713657697040_2_alg».proof.Proof.LibSublaneSpread
import Idealize.ShloMosaic.Lib.ValueLayout
import Idealize.ShloMosaic.PureOps.Ideal.Laws

noncomputable section

open scoped BigOperators
open Idealize.ShloMosaic Idealize.ShloMosaic.ValueIdx

namespace Cert.LnBwd.Kernel

open Cert.KernelIdeal Cert.KernelIdeal.Gen Cert.LnBwd

variable (x0 x1 x2 x6 : FVec Ideal S256x2048 .f32) (x3 x4 : FVec Ideal S256x1 .f32) (x5 : FVec Ideal S1x2048 .f32)

/-- Row `p` of a tile's `[256, 2048]` block. -/
def trow (x : FVec Ideal S256x2048 .f32) (p : Fin 256) : Fin 2048 → EReal := fun k => x (ix2 p k)
/-- Row `p`'s entry of a tile's `[256, 1]` column block. -/
def tcol (x : FVec Ideal S256x1 .f32) (p : Fin 256) : EReal := x (ix2 p (0 : Fin 1))
/-- The scale row by lane. -/
def grow (x : FVec Ideal S1x2048 .f32) : Fin 2048 → EReal := fun k => x (ix2 (0 : Fin 1) k)

/-- A sum over the lanes of row `p`. -/
theorem rowSum_apply (src : FVec Ideal S256x2048 .f32) (h : S256x2048.Reduces [1] S256) (hφ : FKind.Formats .f32)
    (hacc : (0x00000000#32 : BitVec FTy.f32.bits) = FKind.add.neutral .f32 hφ) (p : Fin 256) :
    multiReduction .add [1] S256 src 0x00000000#32 h hφ hacc (ix1 p) = ∑ k : Fin 2048, src (ix2 p k) :=
  (Ideal.multiReduction_add_single src _ h hφ hacc (ix1 p)).trans
    (Finset.sum_congr rfl fun k _ => congrArg src (Cert.Lib.Keepdims.lift_axis1 h p k))

/-- A sum over the rows of lane `q`. -/
theorem colSum_apply (src : FVec Ideal S256x2048 .f32) (h : S256x2048.Reduces [0] S2048) (hφ : FKind.Formats .f32)
    (hacc : (0x00000000#32 : BitVec FTy.f32.bits) = FKind.add.neutral .f32 hφ) (q : Fin 2048) :
    multiReduction .add [0] S2048 src 0x00000000#32 h hφ hacc (ix1 q) = ∑ p : Fin 256, src (ix2 p q) :=
  (Ideal.multiReduction_add_single src _ h hφ hacc (ix1 q)).trans
    (Finset.sum_congr rfl fun k _ => congrArg src (Cert.Lib.ColumnSum.lift_axis0 h q k))

theorem pay6_eq : k0_pay6 (F := Ideal) x0 = x0 := by unfold k0_pay6; exact shapeCast_self _ _
theorem pay7_eq : k0_pay7 (F := Ideal) x3 = x3 := by unfold k0_pay7; exact shapeCast_self _ _

/-- The centred input of row `p` at lane `q`. -/
theorem pay8_apply (p : Fin 256) (q : Fin 2048) :
    k0_pay8 (F := Ideal) x1 x2 x4 (ix2 p q) = xhat (trow x1 p) (trow x2 p) (tcol x4 p) q := by
  unfold k0_pay8
  simp only [shapeCast_self]
  show (x1 (ix2 p q) + x2 (ix2 p q)) - broadcastTo S256x2048 x4 broadcasts_S256x1_S256x2048 (ix2 p q) = _
  rw [Cert.Lib.Keepdims.broadcastTo_a1_ab_apply]
  rfl

/-- `(dy · g) · r` of row `p` at lane `q`. -/
theorem pay9_apply (p : Fin 256) (q : Fin 2048) :
    k0_pay9 (F := Ideal) x0 x3 x5 (ix2 p q) = (trow x0 p q * grow x5 q) * tcol x3 p := by
  unfold k0_pay9
  simp only [shapeCast_self, pay6_eq, pay7_eq]
  show (x0 (ix2 p q) * broadcastTo S256x2048 x5 broadcasts_S1x2048_S256x2048 (ix2 p q))
      * broadcastTo S256x2048 x3 broadcasts_S256x1_S256x2048 (ix2 p q) = _
  rw [Cert.Lib.Keepdims.broadcastTo_a1_ab_apply, broadcastTo_1b_ab_apply]
  rfl

/-- The row sum of the centred input, kept as a column. -/
theorem pay11_apply (p : Fin 256) (u : Fin 1) :
    k0_pay11 (F := Ideal) x1 x2 x4 (ix2 p u) = sumXhatK (trow x1 p) (trow x2 p) (tcol x4 p) := by
  unfold k0_pay11
  dsimp only
  refine (Cert.Lib.Keepdims.shapeCast_a_a1_apply _ _ p u).trans ?_
  refine (rowSum_apply _ _ _ _ p).trans ?_
  exact Finset.sum_congr rfl fun k _ => pay8_apply x1 x2 x4 p k

/-- Zero minus the row sum of `(dy · g) · r`, kept as a column. -/
theorem pay12_apply (p : Fin 256) (u : Fin 1) :
    k0_pay12 (F := Ideal) x0 x3 x5 (ix2 p u) = Z - ∑ k, ((trow x0 p k * grow x5 k) * tcol x3 p) := by
  unfold k0_pay12
  dsimp only
  show Z - shapeCast S256x1 _ shapeCasts_S256_S256x1 (ix2 p u) = _
  refine congrArg (Z - ·) ?_
  refine (Cert.Lib.Keepdims.shapeCast_a_a1_apply _ _ p u).trans ?_
  refine (rowSum_apply _ _ _ _ p).trans ?_
  exact Finset.sum_congr rfl fun k _ => pay9_apply x0 x3 x5 p k

/-- The variance gradient of row `p`, kept as a column. -/
theorem pay10_apply (p : Fin 256) (u : Fin 1) :
    k0_pay10 (F := Ideal) x0 x1 x2 x3 x4 x5 (ix2 p u)
      = pdVarK (trow x0 p) (grow x5) (trow x1 p) (trow x2 p) (tcol x3 p) (tcol x4 p) := by
  unfold k0_pay10
  dsimp only
  refine (Cert.Lib.Keepdims.shapeCast_a_a1_apply _ _ p u).trans ?_
  refine (rowSum_apply _ _ _ _ p).trans ?_
  refine Finset.sum_congr rfl fun k _ => ?_
  show (cH * (k0_pay9 (F := Ideal) x0 x3 x5 (ix2 p k)
      * broadcastTo S256x2048 (mulf (k0_pay7 (F := Ideal) x3) (k0_pay7 (F := Ideal) x3)) broadcasts_S256x1_S256x2048 (ix2 p k)))
      * k0_pay8 (F := Ideal) x1 x2 x4 (ix2 p k) = _
  rw [Cert.Lib.Keepdims.broadcastTo_a1_ab_apply, pay9_apply, pay8_apply, pay7_eq]
  rfl

theorem pay13_apply (p : Fin 256) (u : Fin 1) : k0_pay13 (F := Ideal) (ix2 p u) = cM2 := rfl

/-- THE STORED BLOCK: the input gradient of row `p` at lane `q`, in the arrangement that negates the sum. -/
theorem gxBlock_apply (p : Fin 256) (q : Fin 2048) :
    gxBlock (F := Ideal) x0 x1 x2 x3 x4 x5 x6 (ix2 p q)
      = gxRowK (trow x0 p) (grow x5) (trow x1 p) (trow x2 p) (trow x6 p) (tcol x3 p) (tcol x4 p) q := by
  unfold gxBlock k0_pay1
  simp only [shapeCast_self]
  show ((k0_pay9 (F := Ideal) x0 x3 x5 (ix2 p q)
        + broadcastTo S256x2048 (mulf (k0_pay10 (F := Ideal) x0 x1 x2 x3 x4 x5) (broadcast S256x1 cP2)) broadcasts_S256x1_S256x2048 (ix2 p q)
          * k0_pay8 (F := Ideal) x1 x2 x4 (ix2 p q))
      + broadcastTo S256x2048 (mulf (addf (k0_pay12 (F := Ideal) x0 x3 x5)
          (mulf (mulf (k0_pay10 (F := Ideal) x0 x1 x2 x3 x4 x5) (k0_pay13 (F := Ideal))) (k0_pay11 (F := Ideal) x1 x2 x4)))
          (broadcast S256x1 cP1)) broadcasts_S256x1_S256x2048 (ix2 p q))
      + x6 (ix2 p q) = _
  rw [Cert.Lib.Keepdims.broadcastTo_a1_ab_apply, Cert.Lib.Keepdims.broadcastTo_a1_ab_apply, pay9_apply, pay8_apply]
  show ((_ + (k0_pay10 (F := Ideal) x0 x1 x2 x3 x4 x5 (ix2 p (0 : Fin 1)) * cP2) * _)
      + ((k0_pay12 (F := Ideal) x0 x3 x5 (ix2 p (0 : Fin 1))
          + (k0_pay10 (F := Ideal) x0 x1 x2 x3 x4 x5 (ix2 p (0 : Fin 1)) * k0_pay13 (F := Ideal) (ix2 p (0 : Fin 1)))
            * k0_pay11 (F := Ideal) x1 x2 x4 (ix2 p (0 : Fin 1))) * cP1)) + _ = _
  rw [pay10_apply, pay11_apply, pay12_apply, pay13_apply]
  rfl

/-- One step of the scale gradient's running sum, at sublane `s` and lane `q`: what was there plus the sum over the
    tile's rows of `(dy · x̂) · r`. -/
theorem ggStep_apply (acc : FVec Ideal S1x8x2048 .f32) (u : Fin 1) (s : Fin 8) (q : Fin 2048) :
    ggStep (F := Ideal) x0 x1 x2 x3 x4 acc (ix3 u s q)
      = acc (ix3 u s q) + ∑ p : Fin 256, (trow x0 p q * xhat (trow x1 p) (trow x2 p) (tcol x4 p) q) * tcol x3 p := by
  unfold ggStep k0_pay2
  simp only [shapeCast_self, pay6_eq, pay7_eq]
  show acc (ix3 u s q) + broadcastTo S1x8x2048 _ broadcasts_S1x1x2048_S1x8x2048 (ix3 u s q) = _
  refine congrArg (acc (ix3 u s q) + ·) ?_
  refine (Cert.Lib.SublaneSpread.broadcastTo_11b_1nb_apply _ _ u s q).trans ?_
  refine (Cert.Lib.SublaneSpread.shapeCast_b_11b_apply _ _ 0 0 q).trans ?_
  refine (colSum_apply _ _ _ _ q).trans ?_
  refine Finset.sum_congr rfl fun p _ => ?_
  show (x0 (ix2 p q) * k0_pay8 (F := Ideal) x1 x2 x4 (ix2 p q))
      * broadcastTo S256x2048 x3 broadcasts_S256x1_S256x2048 (ix2 p q) = _
  rw [Cert.Lib.Keepdims.broadcastTo_a1_ab_apply, pay8_apply]
  rfl

/-- One step of the shift gradient's running sum: what was there plus the sum over the tile's rows of `dy`. -/
theorem gbStep_apply (acc : FVec Ideal S1x8x2048 .f32) (u : Fin 1) (s : Fin 8) (q : Fin 2048) :
    gbStep (F := Ideal) x0 acc (ix3 u s q) = acc (ix3 u s q) + ∑ p : Fin 256, trow x0 p q := by
  unfold gbStep k0_pay3
  simp only [shapeCast_self, pay6_eq]
  show acc (ix3 u s q) + broadcastTo S1x8x2048 _ broadcasts_S1x1x2048_S1x8x2048 (ix3 u s q) = _
  refine congrArg (acc (ix3 u s q) + ·) ?_
  refine (Cert.Lib.SublaneSpread.broadcastTo_11b_1nb_apply _ _ u s q).trans ?_
  refine (Cert.Lib.SublaneSpread.shapeCast_b_11b_apply _ _ 0 0 q).trans ?_
  exact colSum_apply _ _ _ _ q

end Cert.LnBwd.Kernel

end
-- ==== Proof.Tiles.lean ====
/-
  Where each window's block sits in its array.

  Point `t` of the grid (core `t / 32`, step `t % 32`) handles tile `32 · (t / 32) + t % 32 = t`: the row windows'
  block index at `t` is `(t, 0)`, so entry `(p, k)` of such a block is entry `(256 t + p, k)` of the array; the scale row's
  block is always the whole `[1, 2048]` array; a running sum's block index is `(t / 32, 0, 0)`: the core's own slab.
-/
import proofs.«163792_j60713657697040_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.LnBwd.Kernel

open Cert.KernelIdeal Cert.KernelIdeal.Gen

variable {F : FTy → Type} [FloatOps F]
variable (m : (ℓ : Loc nD τ sig) → Buf (Elt F) ℓ) (c : Dev nD)

/-- Window 0's block index at point `t` is `(t, 0)` — decided over the grid. -/
theorem idx0_0 : ∀ t : Fin cfg0.N, win0_0.index t (0 : Fin 2) = t.val ∧ win0_0.index t (1 : Fin 2) = 0 :=
  (by decide +kernel : ∀ t : Fin grid0.N, _)

/-- Window 1's block index at point `t` is `(t, 0)` — decided over the grid. -/
theorem idx0_1 : ∀ t : Fin cfg0.N, win0_1.index t (0 : Fin 2) = t.val ∧ win0_1.index t (1 : Fin 2) = 0 :=
  (by decide +kernel : ∀ t : Fin grid0.N, _)

/-- Window 2's block index at point `t` is `(t, 0)` — decided over the grid. -/
theorem idx0_2 : ∀ t : Fin cfg0.N, win0_2.index t (0 : Fin 2) = t.val ∧ win0_2.index t (1 : Fin 2) = 0 :=
  (by decide +kernel : ∀ t : Fin grid0.N, _)

/-- Window 6's block index at point `t` is `(t, 0)` — decided over the grid. -/
theorem idx0_6 : ∀ t : Fin cfg0.N, win0_6.index t (0 : Fin 2) = t.val ∧ win0_6.index t (1 : Fin 2) = 0 :=
  (by decide +kernel : ∀ t : Fin grid0.N, _)

/-- Window 3's block index at point `t` is `(t, 0)` — decided over the grid. -/
theorem idx0_3 : ∀ t : Fin cfg0.N, win0_3.index t (0 : Fin 2) = t.val ∧ win0_3.index t (1 : Fin 2) = 0 :=
  (by decide +kernel : ∀ t : Fin grid0.N, _)

/-- Window 4's block index at point `t` is `(t, 0)` — decided over the grid. -/
theorem idx0_4 : ∀ t : Fin cfg0.N, win0_4.index t (0 : Fin 2) = t.val ∧ win0_4.index t (1 : Fin 2) = 0 :=
  (by decide +kernel : ∀ t : Fin grid0.N, _)

/-- Window 7's block index at point `t` is `(t, 0)` — decided over the grid. -/
theorem idx0_7 : ∀ t : Fin cfg0.N, win0_7.index t (0 : Fin 2) = t.val ∧ win0_7.index t (1 : Fin 2) = 0 :=
  (by decide +kernel : ∀ t : Fin grid0.N, _)

/-- Entry `(p, k)` of window 0's block at point `t` is entry `(256 t + p, k)` of its array. -/
theorem iblk0_apply (t : Fin cfg0.N) (p : Fin 256) (k : Fin 2048) (ρ : Fin 16384) (hρ : ρ.val = 256 * t.val + p.val) :
    (iblk m c 0 t : Vec F S256x2048 .f32) (ix2 p k) = V m c main_v0 (ix2 ρ k) := by
  unfold iblk
  rw [View.read_apply]
  show V m c main_v0 _ = V m c main_v0 _
  refine congrArg (V m c main_v0) (funext fun a => Fin.ext ?_)
  match a with
  | ⟨0, _⟩ => show win0_0.index t (0 : Fin 2) * 256 + 1 * p.val = ρ.val; rw [(idx0_0 t).1, hρ]; omega
  | ⟨1, _⟩ => show win0_0.index t (1 : Fin 2) * 2048 + 1 * k.val = k.val; rw [(idx0_0 t).2]; omega

/-- Entry `(p, k)` of window 1's block at point `t` is entry `(256 t + p, k)` of its array. -/
theorem iblk1_apply (t : Fin cfg0.N) (p : Fin 256) (k : Fin 2048) (ρ : Fin 16384) (hρ : ρ.val = 256 * t.val + p.val) :
    (iblk m c 1 t : Vec F S256x2048 .f32) (ix2 p k) = V m c main_v1 (ix2 ρ k) := by
  unfold iblk
  rw [View.read_apply]
  show V m c main_v1 _ = V m c main_v1 _
  refine congrArg (V m c main_v1) (funext fun a => Fin.ext ?_)
  match a with
  | ⟨0, _⟩ => show win0_1.index t (0 : Fin 2) * 256 + 1 * p.val = ρ.val; rw [(idx0_1 t).1, hρ]; omega
  | ⟨1, _⟩ => show win0_1.index t (1 : Fin 2) * 2048 + 1 * k.val = k.val; rw [(idx0_1 t).2]; omega

/-- Entry `(p, k)` of window 2's block at point `t` is entry `(256 t + p, k)` of its array. -/
theorem iblk2_apply (t : Fin cfg0.N) (p : Fin 256) (k : Fin 2048) (ρ : Fin 16384) (hρ : ρ.val = 256 * t.val + p.val) :
    (iblk m c 2 t : Vec F S256x2048 .f32) (ix2 p k) = V m c main_v2 (ix2 ρ k) := by
  unfold iblk
  rw [View.read_apply]
  show V m c main_v2 _ = V m c main_v2 _
  refine congrArg (V m c main_v2) (funext fun a => Fin.ext ?_)
  match a with
  | ⟨0, _⟩ => show win0_2.index t (0 : Fin 2) * 256 + 1 * p.val = ρ.val; rw [(idx0_2 t).1, hρ]; omega
  | ⟨1, _⟩ => show win0_2.index t (1 : Fin 2) * 2048 + 1 * k.val = k.val; rw [(idx0_2 t).2]; omega

/-- Entry `(p, k)` of window 6's block at point `t` is entry `(256 t + p, k)` of its array. -/
theorem iblk6_apply (t : Fin cfg0.N) (p : Fin 256) (k : Fin 2048) (ρ : Fin 16384) (hρ : ρ.val = 256 * t.val + p.val) :
    (iblk m c 6 t : Vec F S256x2048 .f32) (ix2 p k) = V m c main_v3 (ix2 ρ k) := by
  unfold iblk
  rw [View.read_apply]
  show V m c main_v3 _ = V m c main_v3 _
  refine congrArg (V m c main_v3) (funext fun a => Fin.ext ?_)
  match a with
  | ⟨0, _⟩ => show win0_6.index t (0 : Fin 2) * 256 + 1 * p.val = ρ.val; rw [(idx0_6 t).1, hρ]; omega
  | ⟨1, _⟩ => show win0_6.index t (1 : Fin 2) * 2048 + 1 * k.val = k.val; rw [(idx0_6 t).2]; omega

/-- Entry `(p, k)` of window 3's block at point `t` is entry `(256 t + p, k)` of its array. -/
theorem iblk3_apply (t : Fin cfg0.N) (p : Fin 256) (k : Fin 1) (ρ : Fin 16384) (hρ : ρ.val = 256 * t.val + p.val) :
    (iblk m c 3 t : Vec F S256x1 .f32) (ix2 p k) = V m c main_v4 (ix2 ρ k) := by
  unfold iblk
  rw [View.read_apply]
  show V m c main_v4 _ = V m c main_v4 _
  refine congrArg (V m c main_v4) (funext fun a => Fin.ext ?_)
  match a with
  | ⟨0, _⟩ => show win0_3.index t (0 : Fin 2) * 256 + 1 * p.val = ρ.val; rw [(idx0_3 t).1, hρ]; omega
  | ⟨1, _⟩ => show win0_3.index t (1 : Fin 2) * 1 + 1 * k.val = k.val; rw [(idx0_3 t).2]; omega

/-- Entry `(p, k)` of window 4's block at point `t` is entry `(256 t + p, k)` of its array. -/
theorem iblk4_apply (t : Fin cfg0.N) (p : Fin 256) (k : Fin 1) (ρ : Fin 16384) (hρ : ρ.val = 256 * t.val + p.val) :
    (iblk m c 4 t : Vec F S256x1 .f32) (ix2 p k) = V m c main_v5 (ix2 ρ k) := by
  unfold iblk
  rw [View.read_apply]
  show V m c main_v5 _ = V m c main_v5 _
  refine congrArg (V m c main_v5) (funext fun a => Fin.ext ?_)
  match a with
  | ⟨0, _⟩ => show win0_4.index t (0 : Fin 2) * 256 + 1 * p.val = ρ.val; rw [(idx0_4 t).1, hρ]; omega
  | ⟨1, _⟩ => show win0_4.index t (1 : Fin 2) * 1 + 1 * k.val = k.val; rw [(idx0_4 t).2]; omega

/-- The scale row's block index is `(0, 0)` at every point. -/
theorem idx0_5 : ∀ t : Fin cfg0.N, win0_5.index t (0 : Fin 2) = 0 ∧ win0_5.index t (1 : Fin 2) = 0 :=
  (by decide +kernel : ∀ t : Fin grid0.N, _)

/-- The scale row's block is the whole `[1, 2048]` array. -/
theorem iblk5_apply (t : Fin cfg0.N) (u : Fin 1) (k : Fin 2048) :
    (iblk m c 5 t : Vec F S1x2048 .f32) (ix2 u k) = V m c main_v6 (ix2 (0 : Fin 1) k) := by
  unfold iblk
  rw [View.read_apply]
  show V m c main_v6 _ = V m c main_v6 _
  refine congrArg (V m c main_v6) (funext fun a => Fin.ext ?_)
  match a with
  | ⟨0, _⟩ => show win0_5.index t (0 : Fin 2) * 1 + 1 * u.val = 0; rw [(idx0_5 t).1]; omega
  | ⟨1, _⟩ => show win0_5.index t (1 : Fin 2) * 2048 + 1 * k.val = k.val; rw [(idx0_5 t).2]; omega

/-- A running sum's block index at point `t` is `(t / 32, 0, 0)`: the core's slab. -/
theorem idx0_8 : ∀ t : Fin cfg0.N, win0_8.index t (0 : Fin 3) = t.val / 32 ∧ win0_8.index t (1 : Fin 3) = 0 ∧ win0_8.index t (2 : Fin 3) = 0 :=
  (by decide +kernel : ∀ t : Fin grid0.N, _)
theorem idx0_9 : ∀ t : Fin cfg0.N, win0_9.index t (0 : Fin 3) = t.val / 32 ∧ win0_9.index t (1 : Fin 3) = 0 ∧ win0_9.index t (2 : Fin 3) = 0 :=
  (by decide +kernel : ∀ t : Fin grid0.N, _)

end Cert.LnBwd.Kernel

end
-- ==== Proof.Arrays.lean ====
/-
  The three output arrays after the run, each as ONE function of the arrays the region finds.

  * The input gradient `[16384, 2048]`: every point writes its tile's block back, the 64 tiles cover the rows, and
    entry `(ρ, h)` is the row formula of row `ρ` at lane `h`.
  * The two running sums `[2, 8, 2048]`: only the last point of each core's sweep writes back, core `k`'s slab then
    holding, on each of its 8 sublanes, zero plus the sum over the sweep's 32 tiles of the tile's column sums — a sum
    over rows `256 · (32 k + j) + p`, `j < 32`, `p < 256`.
-/
import proofs.«163792_j60713657697040_2_alg».proof.Proof.Sweep
import proofs.«163792_j60713657697040_2_alg».proof.Proof.KernelIdx
import proofs.«163792_j60713657697040_2_alg».proof.Proof.Tiles

noncomputable section

open scoped BigOperators
open Idealize.ShloMosaic Idealize.ShloMosaic.TcCoe Idealize.SL.Sem Idealize.ShloMosaic.ValueIdx
open Idealize.ShloMosaic.Pipeline (Dat accAt)

namespace Cert.LnBwd.Kernel

open Cert.KernelIdeal Cert.KernelIdeal.Gen Cert.LnBwd

/-! ## The functions, over any `[16384, ·]` arrays -/

section Pure

variable (A0 A1 A2 A6 : S16384x2048.Idx → EReal) (A3 A4 : S16384x1.Idx → EReal) (A5 : S1x2048.Idx → EReal)

/-- Row `ρ` of a `[16384, 2048]` array, and entry `ρ` of a `[16384, 1]` column. -/
def row2 (A : S16384x2048.Idx → EReal) (ρ : Fin 16384) : Fin 2048 → EReal := fun k => A (ix2 ρ k)
def col2 (A : S16384x1.Idx → EReal) (ρ : Fin 16384) : EReal := A (ix2 ρ (0 : Fin 1))

/-- The input gradient at `(ρ, h)`: the row formula of row `ρ`. -/
def gx2 : S16384x2048.Idx → EReal := fun i =>
  gxRowK (row2 A0 (i 0)) (grow A5) (row2 A1 (i 0)) (row2 A2 (i 0)) (row2 A6 (i 0)) (col2 A3 (i 0)) (col2 A4 (i 0)) (i 1)

/-- Row `ρ`'s term of the scale gradient at lane `q`, `(dy · x̂) · r` (rows past the array contribute nothing). -/
def ggRow (ρ : ℕ) (q : Fin 2048) : EReal :=
  if h : ρ < 16384 then (A0 (ix2 ⟨ρ, h⟩ q) * xhat (row2 A1 ⟨ρ, h⟩) (row2 A2 ⟨ρ, h⟩) (col2 A4 ⟨ρ, h⟩) q) * col2 A3 ⟨ρ, h⟩ else 0

/-- Row `ρ`'s term of the shift gradient at lane `q`: `dy`. -/
def gbRow (ρ : ℕ) (q : Fin 2048) : EReal := if h : ρ < 16384 then A0 (ix2 ⟨ρ, h⟩ q) else 0

/-- Core `k`'s slab of a running sum: zero plus the sum over the sweep's tiles `j` and the tile's rows `p`. -/
def gg2 : S2x8x2048.Idx → EReal := fun i =>
  Z + ∑ j ∈ Finset.range 32, ∑ p : Fin 256, ggRow A0 A1 A2 A3 A4 (256 * (32 * (i 0).val + j) + p.val) (i 2)
def gb2 : S2x8x2048.Idx → EReal := fun i =>
  Z + ∑ j ∈ Finset.range 32, ∑ p : Fin 256, gbRow A0 (256 * (32 * (i 0).val + j) + p.val) (i 2)

end Pure

theorem gxRowK_congr {n : ℕ} {dy dy' g g' x1 x1' x2 x2' ds ds' : Fin n → EReal} {r r' mu mu' : EReal} {h h' : Fin n}
    (e1 : dy = dy') (e2 : g = g') (e3 : x1 = x1') (e4 : x2 = x2') (e5 : ds = ds') (e6 : r = r') (e7 : mu = mu') (e8 : h = h') :
    gxRowK dy g x1 x2 ds r mu h = gxRowK dy' g' x1' x2' ds' r' mu' h' := by
  subst e1 e2 e3 e4 e5 e6 e7 e8; rfl

variable (m : (ℓ : Loc nD τ sig) → Buf (Elt Ideal) ℓ) (c : Dev nD)

/-! ## The input gradient -/

/-- Tile `t`'s block at `y` is the array function at the entry `y` sits on. -/
theorem gxPt_apply (t : Fin cfg0.N) (y : S256x2048.Idx) (i : S16384x2048.Idx)
    (h0 : (i 0).val = 256 * t.val + (y 0).val) (h1 : (i 1).val = (y 1).val) :
    gxPt m c t y = gx2 (V m c main_v0) (V m c main_v1) (V m c main_v2) (V m c main_v3) (V m c main_v4) (V m c main_v5) (V m c main_v6) i := by
  obtain ⟨p, q, rfl⟩ : ∃ (p : Fin 256) (q : Fin 2048), y = ix2 p q := ⟨y 0, y 1, eq_ix2 y⟩
  unfold gxPt gx2
  refine (gxBlock_apply (iblk m c 0 t) (iblk m c 1 t) (iblk m c 2 t) (iblk m c 6 t) (iblk m c 3 t) (iblk m c 4 t) (iblk m c 5 t) p q).trans ?_
  exact gxRowK_congr
    (funext fun k => iblk0_apply m c t p k (i 0) h0)
    (funext fun k => iblk5_apply m c t 0 k)
    (funext fun k => iblk1_apply m c t p k (i 0) h0)
    (funext fun k => iblk2_apply m c t p k (i 0) h0)
    (funext fun k => iblk6_apply m c t p k (i 0) h0)
    (iblk3_apply m c t p 0 (i 0) h0)
    (iblk4_apply m c t p 0 (i 0) h0)
    (Fin.ext h1.symm)

/-- WHAT POINT `t` WRITES BACK is block `t` of the array function. -/
theorem flushed7_eq (t : Fin cfg0.N) :
    (dats m 0 c).flushed 7 t = ((cfg0.win 7).blk t).view.read (Elt Ideal) (gx2 (V m c main_v0) (V m c main_v1) (V m c main_v2) (V m c main_v3) (V m c main_v4) (V m c main_v5) (V m c main_v6)) := by
  show (cfg0.win 7).cut (grid0.coords t) ((dats m 0 c).after 7 t) = _
  rw [after0_7, outs_gx]
  funext y
  rw [View.read_apply]
  refine gxPt_apply m c t y _ ?_ ?_
  · show win0_7.index t (0 : Fin 2) * 256 + 1 * (y 0).val = 256 * t.val + (y 0).val
    rw [(idx0_7 t).1]; omega
  · show win0_7.index t (1 : Fin 2) * 2048 + 1 * (y 1).val = (y 1).val
    rw [(idx0_7 t).2]; omega

/-- An entry is in point `t`'s block iff each coordinate is in the block's range on its axis. -/
theorem mem_blk7 (t : Fin cfg0.N) (i : S16384x2048.Idx) :
    i ∈ ((cfg0.win 7).blk t).view.set ↔ ∀ a : Fin 2, win0_7.index t a * S256x2048.size a ≤ (i a).val
      ∧ (i a).val < win0_7.index t a * S256x2048.size a + S256x2048.size a := by
  show i ∈ ((View.whole main_v7_0).slice (win0_7.rect t)).set ↔ _
  rw [View.set_slice_whole, Rect.mem_set_unit]
  exact Iff.rfl

/-- THE INPUT GRADIENT after the run: row `ρ` is covered by tile `ρ / 256`. -/
theorem final7 : (dats m 0 c).arrAt 7 cfg0.N = gx2 (V m c main_v0) (V m c main_v1) (V m c main_v2) (V m c main_v3) (V m c main_v4) (V m c main_v5) (V m c main_v6) :=
  (dats m 0 c).arrAt_eq_of_cover 7 _ (fun t _ => flushed7_eq m c t) fun i => by
    have hi0 : (i 0).val < 16384 := (i 0).isLt
    have hi1 : (i 1).val < 2048 := (i 1).isLt
    have hN : cfg0.N = 64 := N_0
    refine ⟨⟨(i 0).val / 256, by rw [hN]; omega⟩, flush0_7 _, ?_⟩
    rw [mem_blk7]
    intro a
    match a with
    | ⟨0, _⟩ =>
      show win0_7.index _ (0 : Fin 2) * 256 ≤ (i 0).val ∧ (i 0).val < win0_7.index _ (0 : Fin 2) * 256 + 256
      rw [(idx0_7 _).1]; dsimp only; omega
    | ⟨1, _⟩ =>
      show win0_7.index _ (1 : Fin 2) * 2048 ≤ (i 1).val ∧ (i 1).val < win0_7.index _ (1 : Fin 2) * 2048 + 2048
      rw [(idx0_7 _).2]; omega

/-! ## The running sums -/

/-- Tile `t`'s step at sublane `s`, lane `q`: what was there plus the tile's rows' terms, rows `256 t + p`. -/
theorem ggPt_apply (t : Fin cfg0.N) (acc : FVec Ideal S1x8x2048 .f32) (u : Fin 1) (s : Fin 8) (q : Fin 2048) :
    ggPt m c t acc (ix3 u s q) = acc (ix3 u s q) + ∑ p : Fin 256, ggRow (V m c main_v0) (V m c main_v1) (V m c main_v2) (V m c main_v4) (V m c main_v5) (256 * t.val + p.val) q := by
  unfold ggPt
  refine (ggStep_apply (iblk m c 0 t) (iblk m c 1 t) (iblk m c 2 t) (iblk m c 3 t) (iblk m c 4 t) acc u s q).trans ?_
  refine congrArg (acc (ix3 u s q) + ·) (Finset.sum_congr rfl fun p _ => ?_)
  have hN : t.val < 64 := lt_of_lt_of_eq t.isLt N_0
  have hρ : 256 * t.val + p.val < 16384 := by have := p.isLt; omega
  unfold ggRow
  rw [dif_pos hρ]
  have e0 : trow (iblk m c 0 t) p q = V m c main_v0 (ix2 ⟨256 * t.val + p.val, hρ⟩ q) := iblk0_apply m c t p q ⟨_, hρ⟩ rfl
  have e1 : trow (iblk m c 1 t) p = row2 (V m c main_v1) ⟨256 * t.val + p.val, hρ⟩ := funext fun k => iblk1_apply m c t p k ⟨_, hρ⟩ rfl
  have e2 : trow (iblk m c 2 t) p = row2 (V m c main_v2) ⟨256 * t.val + p.val, hρ⟩ := funext fun k => iblk2_apply m c t p k ⟨_, hρ⟩ rfl
  have e3 : tcol (iblk m c 3 t) p = col2 (V m c main_v4) ⟨256 * t.val + p.val, hρ⟩ := iblk3_apply m c t p 0 ⟨_, hρ⟩ rfl
  have e4 : tcol (iblk m c 4 t) p = col2 (V m c main_v5) ⟨256 * t.val + p.val, hρ⟩ := iblk4_apply m c t p 0 ⟨_, hρ⟩ rfl
  rw [e0, e1, e2, e3, e4]

theorem gbPt_apply (t : Fin cfg0.N) (acc : FVec Ideal S1x8x2048 .f32) (u : Fin 1) (s : Fin 8) (q : Fin 2048) :
    gbPt m c t acc (ix3 u s q) = acc (ix3 u s q) + ∑ p : Fin 256, gbRow (V m c main_v0) (256 * t.val + p.val) q := by
  unfold gbPt
  refine (gbStep_apply (iblk m c 0 t) acc u s q).trans ?_
  refine congrArg (acc (ix3 u s q) + ·) (Finset.sum_congr rfl fun p _ => ?_)
  have hN : t.val < 64 := lt_of_lt_of_eq t.isLt N_0
  have hρ : 256 * t.val + p.val < 16384 := by have := p.isLt; omega
  unfold gbRow
  rw [dif_pos hρ]
  exact iblk0_apply m c t p q ⟨_, hρ⟩ rfl

/-- The fold at the last point of a sweep, read at an entry: zero plus the 32 tiles' sums. -/
theorem gg_fold_apply (t : Fin cfg0.N) (h31 : t.val % 32 = 31) (h' : 32 * (t.val / 32) + t.val % 32 < cfg0.N)
    (y : S1x8x2048.Idx) (i : S2x8x2048.Idx) (h0 : (i 0).val = t.val / 32) (h2 : (i 2).val = (y 2).val) :
    accAt (fun n h => ggPt m c ⟨n, h⟩ zeroAcc) (fun n h acc => ggPt m c ⟨n, h⟩ acc) (32 * (t.val / 32)) (t.val % 32) h' y
      = gg2 (V m c main_v0) (V m c main_v1) (V m c main_v2) (V m c main_v4) (V m c main_v5) i := by
  obtain ⟨u, s, q, rfl⟩ : ∃ (u : Fin 1) (s : Fin 8) (q : Fin 2048), y = ix3 u s q := ⟨y 0, y 1, y 2, eq_ix3 y⟩
  have hq : i 2 = q := Fin.ext h2
  refine (Pipeline.accAt_add_apply (fun n h => ggPt m c ⟨n, h⟩ zeroAcc) (fun n h acc => ggPt m c ⟨n, h⟩ acc)
    (fun _ => Z) (fun n (j : S1x8x2048.Idx) => ∑ p : Fin 256, ggRow (V m c main_v0) (V m c main_v1) (V m c main_v2) (V m c main_v4) (V m c main_v5) (256 * n + p.val) (j 2))
    (32 * (t.val / 32)) 31
    (fun h j => by
      obtain ⟨u', s', q', rfl⟩ : ∃ (u' : Fin 1) (s' : Fin 8) (q' : Fin 2048), j = ix3 u' s' q' := ⟨j 0, j 1, j 2, eq_ix3 j⟩
      exact ggPt_apply m c ⟨_, h⟩ (zeroAcc (F := Ideal)) u' s' q')
    (fun n h acc j _ _ => by
      obtain ⟨u', s', q', rfl⟩ : ∃ (u' : Fin 1) (s' : Fin 8) (q' : Fin 2048), j = ix3 u' s' q' := ⟨j 0, j 1, j 2, eq_ix3 j⟩
      exact ggPt_apply m c ⟨n, h⟩ acc u' s' q')
    (t.val % 32) (by omega) h' (ix3 u s q)).trans ?_
  unfold gg2
  rw [h31, h0, hq]

theorem gb_fold_apply (t : Fin cfg0.N) (h31 : t.val % 32 = 31) (h' : 32 * (t.val / 32) + t.val % 32 < cfg0.N)
    (y : S1x8x2048.Idx) (i : S2x8x2048.Idx) (h0 : (i 0).val = t.val / 32) (h2 : (i 2).val = (y 2).val) :
    accAt (fun n h => gbPt m c ⟨n, h⟩ zeroAcc) (fun n h acc => gbPt m c ⟨n, h⟩ acc) (32 * (t.val / 32)) (t.val % 32) h' y
      = gb2 (V m c main_v0) i := by
  obtain ⟨u, s, q, rfl⟩ : ∃ (u : Fin 1) (s : Fin 8) (q : Fin 2048), y = ix3 u s q := ⟨y 0, y 1, y 2, eq_ix3 y⟩
  have hq : i 2 = q := Fin.ext h2
  refine (Pipeline.accAt_add_apply (fun n h => gbPt m c ⟨n, h⟩ zeroAcc) (fun n h acc => gbPt m c ⟨n, h⟩ acc)
    (fun _ => Z) (fun n (j : S1x8x2048.Idx) => ∑ p : Fin 256, gbRow (V m c main_v0) (256 * n + p.val) (j 2))
    (32 * (t.val / 32)) 31
    (fun h j => by
      obtain ⟨u', s', q', rfl⟩ : ∃ (u' : Fin 1) (s' : Fin 8) (q' : Fin 2048), j = ix3 u' s' q' := ⟨j 0, j 1, j 2, eq_ix3 j⟩
      exact gbPt_apply m c ⟨_, h⟩ (zeroAcc (F := Ideal)) u' s' q')
    (fun n h acc j _ _ => by
      obtain ⟨u', s', q', rfl⟩ : ∃ (u' : Fin 1) (s' : Fin 8) (q' : Fin 2048), j = ix3 u' s' q' := ⟨j 0, j 1, j 2, eq_ix3 j⟩
      exact gbPt_apply m c ⟨n, h⟩ acc u' s' q')
    (t.val % 32) (by omega) h' (ix3 u s q)).trans ?_
  unfold gb2
  rw [h31, h0, hq]

/-- WHAT THE LAST POINT OF A SWEEP WRITES BACK is the core's slab of the array function. -/
theorem flushed8_eq (t : Fin cfg0.N) (hf : (cfg0.win 8).flush t = true) :
    (dats m 0 c).flushed 8 t = ((cfg0.win 8).blk t).view.read (Elt Ideal) (gg2 (V m c main_v0) (V m c main_v1) (V m c main_v2) (V m c main_v4) (V m c main_v5)) := by
  have h31 : t.val % 32 = 31 := (flush0_8 t).mp hf
  have h' : 32 * (t.val / 32) + t.val % 32 < cfg0.N := by rw [Nat.div_add_mod]; exact t.isLt
  show (cfg0.win 8).cut (grid0.coords t) ((dats m 0 c).after 8 t) = _
  rw [after0_8, outs_gg m c t h']
  funext y
  rw [View.read_apply]
  refine gg_fold_apply m c t h31 h' y _ ?_ ?_
  · show win0_8.index t (0 : Fin 3) * 1 + 1 * (y 0).val = t.val / 32
    have : (y 0).val < 1 := (y 0).isLt
    rw [(idx0_8 t).1]; omega
  · show win0_8.index t (2 : Fin 3) * 2048 + 1 * (y 2).val = (y 2).val
    rw [(idx0_8 t).2.2]; omega

theorem flushed9_eq (t : Fin cfg0.N) (hf : (cfg0.win 9).flush t = true) :
    (dats m 0 c).flushed 9 t = ((cfg0.win 9).blk t).view.read (Elt Ideal) (gb2 (V m c main_v0)) := by
  have h31 : t.val % 32 = 31 := (flush0_9 t).mp hf
  have h' : 32 * (t.val / 32) + t.val % 32 < cfg0.N := by rw [Nat.div_add_mod]; exact t.isLt
  show (cfg0.win 9).cut (grid0.coords t) ((dats m 0 c).after 9 t) = _
  rw [after0_9, outs_gb m c t h']
  funext y
  rw [View.read_apply]
  refine gb_fold_apply m c t h31 h' y _ ?_ ?_
  · show win0_9.index t (0 : Fin 3) * 1 + 1 * (y 0).val = t.val / 32
    have : (y 0).val < 1 := (y 0).isLt
    rw [(idx0_9 t).1]; omega
  · show win0_9.index t (2 : Fin 3) * 2048 + 1 * (y 2).val = (y 2).val
    rw [(idx0_9 t).2.2]; omega

theorem mem_blk8 (t : Fin cfg0.N) (i : S2x8x2048.Idx) :
    i ∈ ((cfg0.win 8).blk t).view.set ↔ ∀ a : Fin 3, win0_8.index t a * S1x8x2048.size a ≤ (i a).val
      ∧ (i a).val < win0_8.index t a * S1x8x2048.size a + S1x8x2048.size a := by
  show i ∈ ((View.whole main_v7_1).slice (win0_8.rect t)).set ↔ _
  rw [View.set_slice_whole, Rect.mem_set_unit]
  exact Iff.rfl

theorem mem_blk9 (t : Fin cfg0.N) (i : S2x8x2048.Idx) :
    i ∈ ((cfg0.win 9).blk t).view.set ↔ ∀ a : Fin 3, win0_9.index t a * S1x8x2048.size a ≤ (i a).val
      ∧ (i a).val < win0_9.index t a * S1x8x2048.size a + S1x8x2048.size a := by
  show i ∈ ((View.whole main_v7_2).slice (win0_9.rect t)).set ↔ _
  rw [View.set_slice_whole, Rect.mem_set_unit]
  exact Iff.rfl

/-- THE SCALE GRADIENT'S PARTIAL SUMS after the run: core `k`'s slab is covered by point `32 k + 31`. -/
theorem final8 : (dats m 0 c).arrAt 8 cfg0.N = gg2 (V m c main_v0) (V m c main_v1) (V m c main_v2) (V m c main_v4) (V m c main_v5) :=
  (dats m 0 c).arrAt_eq_of_cover 8 _ (fun t hf => flushed8_eq m c t hf) fun i => by
    have hi0 : (i 0).val < 2 := (i 0).isLt
    have hi1 : (i 1).val < 8 := (i 1).isLt
    have hi2 : (i 2).val < 2048 := (i 2).isLt
    have hN : cfg0.N = 64 := N_0
    refine ⟨⟨32 * (i 0).val + 31, by rw [hN]; omega⟩, (flush0_8 _).mpr (by dsimp only; omega), ?_⟩
    rw [mem_blk8]
    intro a
    match a with
    | ⟨0, _⟩ =>
      show win0_8.index _ (0 : Fin 3) * 1 ≤ (i 0).val ∧ (i 0).val < win0_8.index _ (0 : Fin 3) * 1 + 1
      rw [(idx0_8 _).1]; dsimp only; omega
    | ⟨1, _⟩ =>
      show win0_8.index _ (1 : Fin 3) * 8 ≤ (i 1).val ∧ (i 1).val < win0_8.index _ (1 : Fin 3) * 8 + 8
      rw [(idx0_8 _).2.1]; omega
    | ⟨2, _⟩ =>
      show win0_8.index _ (2 : Fin 3) * 2048 ≤ (i 2).val ∧ (i 2).val < win0_8.index _ (2 : Fin 3) * 2048 + 2048
      rw [(idx0_8 _).2.2]; omega

/-- THE SHIFT GRADIENT'S PARTIAL SUMS after the run. -/
theorem final9 : (dats m 0 c).arrAt 9 cfg0.N = gb2 (V m c main_v0) :=
  (dats m 0 c).arrAt_eq_of_cover 9 _ (fun t hf => flushed9_eq m c t hf) fun i => by
    have hi0 : (i 0).val < 2 := (i 0).isLt
    have hi1 : (i 1).val < 8 := (i 1).isLt
    have hi2 : (i 2).val < 2048 := (i 2).isLt
    have hN : cfg0.N = 64 := N_0
    refine ⟨⟨32 * (i 0).val + 31, by rw [hN]; omega⟩, (flush0_9 _).mpr (by dsimp only; omega), ?_⟩
    rw [mem_blk9]
    intro a
    match a with
    | ⟨0, _⟩ =>
      show win0_9.index _ (0 : Fin 3) * 1 ≤ (i 0).val ∧ (i 0).val < win0_9.index _ (0 : Fin 3) * 1 + 1
      rw [(idx0_9 _).1]; dsimp only; omega
    | ⟨1, _⟩ =>
      show win0_9.index _ (1 : Fin 3) * 8 ≤ (i 1).val ∧ (i 1).val < win0_9.index _ (1 : Fin 3) * 8 + 8
      rw [(idx0_9 _).2.1]; omega
    | ⟨2, _⟩ =>
      show win0_9.index _ (2 : Fin 3) * 2048 ≤ (i 2).val ∧ (i 2).val < win0_9.index _ (2 : Fin 3) * 2048 + 2048
      rw [(idx0_9 _).2.2]; omega

end Cert.LnBwd.Kernel

end
-- ==== Proof.Tail.lean ====
/-
  The program around the kernel, and the kernel program's run read back.

  Before the kernel the seven arguments are only re-laid: rows `(b, s)` of the `[4, 4096, ·]` arrays become rows
  `4096 b + s` of `[16384, ·]` arrays, the scale vector a `[1, 2048]` row. After it the input gradient is re-laid back, and
  each running sum's two core slabs are read at sublane 0 and added, from zero. So the three results are functions of the
  argument arrays: the re-laid array function, and zero plus the two cores' partial sums.
-/
import proofs.«163792_j60713657697040_2_alg».proof.Proof.Arrays
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat accAt)

namespace Cert.LnBwd.Kernel

open Cert.KernelIdeal Cert.KernelIdeal.Gen Cert.LnBwd

/-- What the lines after the kernel make of a `[2, 8, 2048]` array of partial sums: sublane 0 of each core's slab, the two
    cores added from zero. -/
def tailSum (G : S2x8x2048.Idx → EReal) : S2048.Idx → EReal :=
  Host.reduceAdd (F := Ideal)
    (shapeCast S2x2048 (extractStridedSlice S2x1x2048 ![0, 0, 0] G slices_S2x8x2048_S2x1x2048_0_0_0) shapeCasts_S2x1x2048_S2x2048)
    (constant S_ .f32 0x00000000#32) reducesTo_S2x2048_S2048_d0 h_S_

/-- At lane `q`: zero plus the two cores' entries at sublane 0. -/
theorem tailSum_apply (G : S2x8x2048.Idx → EReal) (q : Fin 2048) :
    tailSum G (ix1 q) = Z + ∑ k : Fin 2, G (ix3 k (0 : Fin 8) q) := by
  unfold tailSum
  generalize hy : shapeCast S2x2048 (extractStridedSlice S2x1x2048 ![0, 0, 0] G slices_S2x8x2048_S2x1x2048_0_0_0) shapeCasts_S2x1x2048_S2x2048 = y0
  simp only [Host.reduceAdd, Ideal.hostReduceAdd_def]
  rw [Ideal.hostReduceAdd_single reducesTo_S2x2048_S2048_d0 (by decide)]
  refine congrArg₂ (· + ·) rfl (Finset.sum_congr rfl fun (k : Fin 2) _ => ?_)
  subst hy
  refine (congrArg _ (Cert.Lib.ColumnSum.lift_axis0 _ q k)).trans ?_
  refine (shapeCast_apply _ shapeCasts_S2x1x2048_S2x2048 (ix2 k q) (ix3 k (0 : Fin 1) q) (by
    rw [Shape.rowMajor_val_three, Shape.rowMajor_val_two]
    show (k.val * 1 + 0) * 2048 + q.val = k.val * 2048 + q.val
    omega)).trans ?_
  exact extractStridedSlice_apply ![0, 0, 0] G slices_S2x8x2048_S2x1x2048_0_0_0 (ix3 k (0 : Fin 1) q) (ix3 k (0 : Fin 8) q) fun a => by
    match a with
    | ⟨0, _⟩ => show k.val = 0 + k.val; omega
    | ⟨1, _⟩ => show (0 : ℕ) = 0 + 0; rfl
    | ⟨2, _⟩ => show q.val = 0 + q.val; omega

variable (m : (ℓ : Loc nD τ sig) → Buf (Elt Ideal) ℓ) (c : Dev nD)

/-! ## The arrays the kernel finds -/

theorem entry_v0 : (V m c main_v0 : S16384x2048.Idx → EReal) = shapeCast S16384x2048 (m ((c.tc : Thread nD τ).loc main_arg0)) shapeCasts_S4x4096x2048_S16384x2048 := by
  dsimp only [Gen.V, Gen.V0]
  simp only [Gen.hostOps0, List.flatten_cons, List.flatten_nil, List.append_nil, List.cons_append, List.nil_append]
  after_results
  rfl

theorem entry_v1 : (V m c main_v1 : S16384x2048.Idx → EReal) = shapeCast S16384x2048 (m ((c.tc : Thread nD τ).loc main_arg1)) shapeCasts_S4x4096x2048_S16384x2048 := by
  dsimp only [Gen.V, Gen.V0]
  simp only [Gen.hostOps0, List.flatten_cons, List.flatten_nil, List.append_nil, List.cons_append, List.nil_append]
  after_results
  rfl

theorem entry_v2 : (V m c main_v2 : S16384x2048.Idx → EReal) = shapeCast S16384x2048 (m ((c.tc : Thread nD τ).loc main_arg2)) shapeCasts_S4x4096x2048_S16384x2048 := by
  dsimp only [Gen.V, Gen.V0]
  simp only [Gen.hostOps0, List.flatten_cons, List.flatten_nil, List.append_nil, List.cons_append, List.nil_append]
  after_results
  rfl

theorem entry_v3 : (V m c main_v3 : S16384x2048.Idx → EReal) = shapeCast S16384x2048 (m ((c.tc : Thread nD τ).loc main_arg6)) shapeCasts_S4x4096x2048_S16384x2048 := by
  dsimp only [Gen.V, Gen.V0]
  simp only [Gen.hostOps0, List.flatten_cons, List.flatten_nil, List.append_nil, List.cons_append, List.nil_append]
  after_results
  rfl

theorem entry_v4 : (V m c main_v4 : S16384x1.Idx → EReal) = shapeCast S16384x1 (m ((c.tc : Thread nD τ).loc main_arg3)) shapeCasts_S4x4096x1_S16384x1 := by
  dsimp only [Gen.V, Gen.V0]
  simp only [Gen.hostOps0, List.flatten_cons, List.flatten_nil, List.append_nil, List.cons_append, List.nil_append]
  after_results
  rfl

theorem entry_v5 : (V m c main_v5 : S16384x1.Idx → EReal) = shapeCast S16384x1 (m ((c.tc : Thread nD τ).loc main_arg4)) shapeCasts_S4x4096x1_S16384x1 := by
  dsimp only [Gen.V, Gen.V0]
  simp only [Gen.hostOps0, List.flatten_cons, List.flatten_nil, List.append_nil, List.cons_append, List.nil_append]
  after_results
  rfl

theorem entry_v6 : (V m c main_v6 : S1x2048.Idx → EReal) = shapeCast S1x2048 (m ((c.tc : Thread nD τ).loc main_arg5)) shapeCasts_S2048_S1x2048 := by
  dsimp only [Gen.V, Gen.V0]
  simp only [Gen.hostOps0, List.flatten_cons, List.flatten_nil, List.append_nil, List.cons_append, List.nil_append]
  after_results
  rfl

/-! ## The three results -/

/-- The kernel program's three results, as functions of the argument arrays. -/
def KX : S4x4096x2048.Idx → EReal :=
  shapeCast S4x4096x2048 (gx2 (V m c main_v0) (V m c main_v1) (V m c main_v2) (V m c main_v3) (V m c main_v4) (V m c main_v5) (V m c main_v6)) shapeCasts_S16384x2048_S4x4096x2048
def KG : S2048.Idx → EReal := tailSum (gg2 (V m c main_v0) (V m c main_v1) (V m c main_v2) (V m c main_v4) (V m c main_v5))
def KB : S2048.Idx → EReal := tailSum (gb2 (V m c main_v0))

theorem tail_v8 : Pipeline.afterTail₀ cfgs (dats m) 0 (V0 m) [hostOps1] c main_v8 = KX m c := by
  unfold Pipeline.afterTail₀
  show StableHlo.after hostOps1 _ (Proc.devRef .tc main_v8) = _
  after_results
  rw [show Pipeline.withArrays (cfgs 0).spec c (V0 m c) (fun w => (dats m 0 c).arrAt w (cfgs 0).N) (Proc.tc.devRef main_v7_0)
      = gx2 (V m c main_v0) (V m c main_v1) (V m c main_v2) (V m c main_v3) (V m c main_v4) (V m c main_v5) (V m c main_v6) from (Pipeline.withArrays_arr spec0 launch0.win.arr_inj c _ _ 7).trans (final7 m c)]
  rfl

theorem tail_v11 : Pipeline.afterTail₀ cfgs (dats m) 0 (V0 m) [hostOps1] c main_v11 = KG m c := by
  unfold Pipeline.afterTail₀
  show StableHlo.after hostOps1 _ (Proc.devRef .tc main_v11) = _
  after_results
  rw [show Pipeline.withArrays (cfgs 0).spec c (V0 m c) (fun w => (dats m 0 c).arrAt w (cfgs 0).N) (Proc.tc.devRef main_v7_1)
      = gg2 (V m c main_v0) (V m c main_v1) (V m c main_v2) (V m c main_v4) (V m c main_v5) from (Pipeline.withArrays_arr spec0 launch0.win.arr_inj c _ _ 8).trans (final8 m c)]
  rfl

theorem tail_v14 : Pipeline.afterTail₀ cfgs (dats m) 0 (V0 m) [hostOps1] c main_v14 = KB m c := by
  unfold Pipeline.afterTail₀
  show StableHlo.after hostOps1 _ (Proc.devRef .tc main_v14) = _
  after_results
  rw [show Pipeline.withArrays (cfgs 0).spec c (V0 m c) (fun w => (dats m 0 c).arrAt w (cfgs 0).N) (Proc.tc.devRef main_v7_2)
      = gb2 (V m c main_v0) from (Pipeline.withArrays_arr spec0 launch0.win.arr_inj c _ _ 9).trans (final9 m c)]
  rfl

/-- THE RUN, READ: every weakly fair execution of the kernel program terminates with its three results at these functions
    of the argument arrays, and the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v8) = KX m c
      ∧ r.2.mem ((c.tc : Thread nD τ).loc main_v11) = KG m c
      ∧ r.2.mem ((c.tc : Thread nD τ).loc main_v14) = KB m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v8 (Pipeline.mem_restRefs_of main_v8 (by decide) (by decide))).trans (tail_v8 m c),
     ((h c).2 main_v11 (Pipeline.mem_restRefs_of main_v11 (by decide) (by decide))).trans (tail_v11 m c),
     ((h c).2 main_v14 (Pipeline.mem_restRefs_of main_v14 (by decide) (by decide))).trans (tail_v14 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c)⟩)
    (run_main m ρ)

end Cert.LnBwd.Kernel

end
-- ==== Proof.Bridge.lean ====
/-
  The kernel program's three results are the specification.

  The kernel works on the arrays re-laid to 16384 rows: row `ρ` of a re-laid array is row `(ρ / 4096, ρ % 4096)` of the
  argument. Re-laid back, the input gradient at `(b, s, h)` is the row formula of row `4096 b + s`, which is row `(b, s)` of the
  arguments; the two arrangements of the row formula agree because `dy`, `gamma` and `rstd` are real (the row law).
  The scale and shift gradients are sums over all 16384 rows, taken by the kernel as core `k`, tile `j`, row `p` of the tile
  (row `256 (32 k + j) + p`) and by the specification as batch `b`, position `s` (row `4096 b + s`): both are the sum over
  `ρ < 16384`, addition on the extended reals being commutative and associative.
-/
import proofs.«163792_j60713657697040_2_alg».proof.Proof.Tail

noncomputable section

open scoped BigOperators
open Idealize.ShloMosaic Idealize.ShloMosaic.ValueIdx
open Finset (range)

namespace Cert.LnBwd.Bridge

open Cert.KernelIdeal Cert.KernelIdeal.Gen Cert.LnBwd Cert.LnBwd.Kernel

/-! ## Sums over rows -/

/-- The kernel's order of the rows (core, tile, row of the tile; each core's sum started from zero) and the
    specification's (batch, position) give the same sum. -/
theorem regroup (f : ℕ → EReal) :
    (∑ k : Fin 2, (Z + ∑ j ∈ range 32, ∑ p : Fin 256, f (256 * (32 * k.val + j) + p.val)))
      = ∑ b : Fin 4, ∑ s : Fin 4096, f (4096 * b.val + s.val) := by
  have hL : ∀ k : Fin 2, (Z + ∑ j ∈ range 32, ∑ p : Fin 256, f (256 * (32 * k.val + j) + p.val))
      = (fun k' : ℕ => ∑ j ∈ range 32, ∑ p ∈ range 256, f (256 * (32 * k' + j) + p)) k.val := fun k => by
    rw [Z_eq, zero_add]
    exact Finset.sum_congr rfl fun j _ => Fin.sum_univ_eq_sum_range (fun p => f (256 * (32 * k.val + j) + p)) 256
  have hR : ∀ b : Fin 4, (∑ s : Fin 4096, f (4096 * b.val + s.val))
      = (fun b' : ℕ => ∑ s ∈ range 4096, f (4096 * b' + s)) b.val := fun b =>
    Fin.sum_univ_eq_sum_range (fun s => f (4096 * b.val + s)) 4096
  calc (∑ k : Fin 2, (Z + ∑ j ∈ range 32, ∑ p : Fin 256, f (256 * (32 * k.val + j) + p.val)))
      = ∑ k ∈ range 2, ∑ j ∈ range 32, ∑ p ∈ range 256, f (256 * (32 * k + j) + p) := by
        rw [Finset.sum_congr rfl fun k _ => hL k]
        exact Fin.sum_univ_eq_sum_range (fun k' : ℕ => ∑ j ∈ range 32, ∑ p ∈ range 256, f (256 * (32 * k' + j) + p)) 2
    _ = ∑ t ∈ range (2 * 32), ∑ p ∈ range 256, f (256 * t + p) :=
        (Cert.Lib.SublaneSpread.sum_range_mul (fun t => ∑ p ∈ range 256, f (256 * t + p)) 2 32).symm
    _ = ∑ ρ ∈ range (2 * 32 * 256), f ρ := (Cert.Lib.SublaneSpread.sum_range_mul f (2 * 32) 256).symm
    _ = ∑ ρ ∈ range (4 * 4096), f ρ := rfl
    _ = ∑ b ∈ range 4, ∑ s ∈ range 4096, f (4096 * b + s) := Cert.Lib.SublaneSpread.sum_range_mul f 4 4096
    _ = ∑ b : Fin 4, ∑ s : Fin 4096, f (4096 * b.val + s.val) := by
        rw [Finset.sum_congr rfl fun b _ => hR b]
        exact (Fin.sum_univ_eq_sum_range (fun b' : ℕ => ∑ s ∈ range 4096, f (4096 * b' + s)) 4).symm

/-! ## The re-laid arrays -/

variable (a0 a1 a2 a6 : S4x4096x2048.Idx → EReal) (a3 a4 : S4x4096x1.Idx → EReal) (a5 : S2048.Idx → EReal)

/-- The arguments re-laid as the kernel finds them. -/
abbrev R2 (a : S4x4096x2048.Idx → EReal) : S16384x2048.Idx → EReal := shapeCast S16384x2048 a shapeCasts_S4x4096x2048_S16384x2048
abbrev C2 (a : S4x4096x1.Idx → EReal) : S16384x1.Idx → EReal := shapeCast S16384x1 a shapeCasts_S4x4096x1_S16384x1
abbrev G2 (a : S2048.Idx → EReal) : S1x2048.Idx → EReal := shapeCast S1x2048 a shapeCasts_S2048_S1x2048

/-- Row `ρ` of a re-laid array is row `(ρ / 4096, ρ % 4096)` of the argument. -/
def rowB (ρ : Fin 16384) : Fin 4 := ⟨ρ.val / 4096, by have := ρ.isLt; omega⟩
def rowS (ρ : Fin 16384) : Fin 4096 := ⟨ρ.val % 4096, by omega⟩

theorem R2_apply (a : S4x4096x2048.Idx → EReal) (ρ : Fin 16384) (k : Fin 2048) :
    R2 a (ix2 ρ k) = a (ix3 (rowB ρ) (rowS ρ) k) :=
  shapeCast_apply a _ (ix2 ρ k) (ix3 (rowB ρ) (rowS ρ) k) (by
    rw [Shape.rowMajor_val_three, Shape.rowMajor_val_two]
    show (ρ.val / 4096 * 4096 + ρ.val % 4096) * 2048 + k.val = ρ.val * 2048 + k.val
    omega)

theorem C2_apply (a : S4x4096x1.Idx → EReal) (ρ : Fin 16384) (u : Fin 1) :
    C2 a (ix2 ρ u) = a (ix3 (rowB ρ) (rowS ρ) (0 : Fin 1)) :=
  shapeCast_apply a _ (ix2 ρ u) (ix3 (rowB ρ) (rowS ρ) (0 : Fin 1)) (by
    have hu : u.val = 0 := by omega
    rw [Shape.rowMajor_val_three, Shape.rowMajor_val_two]
    show (ρ.val / 4096 * 4096 + ρ.val % 4096) * 1 + 0 = ρ.val * 1 + u.val
    omega)

theorem row2_R2 (a : S4x4096x2048.Idx → EReal) (ρ : Fin 16384) : row2 (R2 a) ρ = rowOf a (rowB ρ) (rowS ρ) :=
  funext fun k => R2_apply a ρ k
theorem col2_C2 (a : S4x4096x1.Idx → EReal) (ρ : Fin 16384) : col2 (C2 a) ρ = colOf a (rowB ρ) (rowS ρ) := C2_apply a ρ 0
theorem grow_G2 (a : S2048.Idx → EReal) : grow (G2 a) = vecOf a := funext fun k => shapeCast_a_1a_apply a _ 0 k

/-- Row `4096 b + s` is row `(b, s)`. -/
theorem rowB_mk (b : Fin 4) (s : Fin 4096) (h : 4096 * b.val + s.val < 16384) : rowB ⟨4096 * b.val + s.val, h⟩ = b :=
  Fin.ext (by show (4096 * b.val + s.val) / 4096 = b.val; have := s.isLt; omega)
theorem rowS_mk (b : Fin 4) (s : Fin 4096) (h : 4096 * b.val + s.val < 16384) : rowS ⟨4096 * b.val + s.val, h⟩ = s :=
  Fin.ext (by show (4096 * b.val + s.val) % 4096 = s.val; have := s.isLt; omega)

/-! ## The three results -/

/-- THE INPUT GRADIENT: the kernel's array function, re-laid back, is the specification — where `dy`, `rstd`, `gamma` are real. -/
theorem kx_eq (h0 : ∀ i, ∃ r : ℝ, a0 i = (r : EReal)) (h3 : ∀ i, ∃ r : ℝ, a3 i = (r : EReal)) (h5 : ∀ i, ∃ r : ℝ, a5 i = (r : EReal)) :
    shapeCast S4x4096x2048 (gx2 (R2 a0) (R2 a1) (R2 a2) (R2 a6) (C2 a3) (C2 a4) (G2 a5)) shapeCasts_S16384x2048_S4x4096x2048
      = GX a0 a1 a2 a3 a4 a5 a6 := by
  funext i
  obtain ⟨b, s, h, rfl⟩ : ∃ (b : Fin 4) (s : Fin 4096) (h : Fin 2048), i = ix3 b s h := ⟨i 0, i 1, i 2, eq_ix3 i⟩
  have hρ : 4096 * b.val + s.val < 16384 := by have := b.isLt; have := s.isLt; omega
  refine (shapeCast_apply _ shapeCasts_S16384x2048_S4x4096x2048 (ix3 b s h) (ix2 ⟨4096 * b.val + s.val, hρ⟩ h) (by
    rw [Shape.rowMajor_val_two, Shape.rowMajor_val_three]
    show (4096 * b.val + s.val) * 2048 + h.val = (b.val * 4096 + s.val) * 2048 + h.val
    omega)).trans ?_
  show gxRowK (row2 (R2 a0) ⟨4096 * b.val + s.val, hρ⟩) (grow (G2 a5)) (row2 (R2 a1) ⟨4096 * b.val + s.val, hρ⟩)
      (row2 (R2 a2) ⟨4096 * b.val + s.val, hρ⟩) (row2 (R2 a6) ⟨4096 * b.val + s.val, hρ⟩)
      (col2 (C2 a3) ⟨4096 * b.val + s.val, hρ⟩) (col2 (C2 a4) ⟨4096 * b.val + s.val, hρ⟩) h
    = gxRow (rowOf a0 b s) (vecOf a5) (rowOf a1 b s) (rowOf a2 b s) (rowOf a6 b s) (colOf a3 b s) (colOf a4 b s) h
  rw [row2_R2, row2_R2, row2_R2, row2_R2, col2_C2, col2_C2, grow_G2, rowB_mk b s hρ, rowS_mk b s hρ]
  exact gxRowK_eq _ _ _ _ _ _ _ (fun k => h0 _) (fun k => h5 _) (h3 _) h

/-- THE SCALE GRADIENT. -/
theorem kg_eq : tailSum (gg2 (R2 a0) (R2 a1) (R2 a2) (C2 a3) (C2 a4)) = GG a0 a1 a2 a3 a4 := by
  funext j
  obtain ⟨q, rfl⟩ : ∃ q : Fin 2048, j = ix1 q := ⟨j 0, eq_ix1 j⟩
  rw [tailSum_apply]
  have hL : ∀ k : Fin 2, gg2 (R2 a0) (R2 a1) (R2 a2) (C2 a3) (C2 a4) (ix3 k (0 : Fin 8) q)
      = Z + ∑ j ∈ range 32, ∑ p : Fin 256, ggRow (R2 a0) (R2 a1) (R2 a2) (C2 a3) (C2 a4) (256 * (32 * k.val + j) + p.val) q :=
    fun k => rfl
  have hR : GG a0 a1 a2 a3 a4 (ix1 q) = Z + ∑ b : Fin 4, ∑ s : Fin 4096, ggTerm a0 a1 a2 a3 a4 b s q := rfl
  rw [Finset.sum_congr rfl fun k _ => hL k, hR, regroup (fun ρ => ggRow (R2 a0) (R2 a1) (R2 a2) (C2 a3) (C2 a4) ρ q)]
  refine congrArg (Z + ·) (Finset.sum_congr rfl fun b _ => Finset.sum_congr rfl fun s _ => ?_)
  have hρ : 4096 * b.val + s.val < 16384 := by have := b.isLt; have := s.isLt; omega
  unfold ggRow ggTerm
  rw [dif_pos hρ, row2_R2, row2_R2, col2_C2, col2_C2, R2_apply, rowB_mk b s hρ, rowS_mk b s hρ]

/-- THE SHIFT GRADIENT. -/
theorem kb_eq : tailSum (gb2 (R2 a0)) = GB a0 := by
  funext j
  obtain ⟨q, rfl⟩ : ∃ q : Fin 2048, j = ix1 q := ⟨j 0, eq_ix1 j⟩
  rw [tailSum_apply]
  have hL : ∀ k : Fin 2, gb2 (R2 a0) (ix3 k (0 : Fin 8) q)
      = Z + ∑ j ∈ range 32, ∑ p : Fin 256, gbRow (R2 a0) (256 * (32 * k.val + j) + p.val) q :=
    fun k => rfl
  have hR : GB a0 (ix1 q) = Z + ∑ b : Fin 4, ∑ s : Fin 4096, a0 (ix3 b s q) := rfl
  rw [Finset.sum_congr rfl fun k _ => hL k, hR, regroup (fun ρ => gbRow (R2 a0) ρ q)]
  refine congrArg (Z + ·) (Finset.sum_congr rfl fun b _ => Finset.sum_congr rfl fun s _ => ?_)
  have hρ : 4096 * b.val + s.val < 16384 := by have := b.isLt; have := s.isLt; omega
  unfold gbRow
  rw [dif_pos hρ, R2_apply, rowB_mk b s hρ, rowS_mk b s hρ]

end Cert.LnBwd.Bridge

end
-- ==== Proof.lean ====
/-
  The certificate of a layer-normalisation backward pass: a tiled kernel (two cores, 32 tiles of 256 rows each) against
  the plain formula, equal as extended reals under the precondition that every input is finite.

  For each row the kernel and the reference compute the same three quantities — the gradient with respect to the variance,
  the gradient with respect to the mean, and from them the input gradient — with the factors of one product grouped
  differently and with "zero minus the sum of the products" on one side where the other has "the sum of the negated
  products". Regrouping a product costs nothing on the extended reals; moving a negation through a sum does, and that is the
  one place finiteness is used (of `dy`, `gamma` and `rstd`). The scale and shift gradients are sums over all 16384 rows; the
  kernel takes them as two per-core running sums over 32 tiles, started from zero, then adds the two cores; the reference
  sums over batch and position; the extended reals' addition is commutative and associative.

  The three frames are the generated ones (the reference's is its generated run with the results dropped); the ideal pass
  rewrote nothing, so the kernel's idealization claim is trivial; the value claim is assembled below from the kernel
  program's run read back, the reference's run read back, and the bridge between them.
-/
import proofs.«163792_j60713657697040_2_alg».proof.Defs
import proofs.«163792_j60713657697040_2_alg».proof.Proof.Gen.Kernel
import proofs.«163792_j60713657697040_2_alg».proof.Proof.Gen.Kernel.Skeleton
import proofs.«163792_j60713657697040_2_alg».proof.Proof.Gen.Kernel.Launch
import proofs.«163792_j60713657697040_2_alg».proof.Proof.Gen.Kernel.Points
import proofs.«163792_j60713657697040_2_alg».proof.Proof.Gen.Kernel.Frame
import proofs.«163792_j60713657697040_2_alg».proof.Proof.Gen.KernelIdeal
import proofs.«163792_j60713657697040_2_alg».proof.Proof.Gen.KernelIdeal.Skeleton
import proofs.«163792_j60713657697040_2_alg».proof.Proof.Gen.KernelIdeal.Launch
import proofs.«163792_j60713657697040_2_alg».proof.Proof.Gen.KernelIdeal.Points
import proofs.«163792_j60713657697040_2_alg».proof.Proof.Gen.KernelIdeal.Frame
import proofs.«163792_j60713657697040_2_alg».proof.Proof.Gen.ReferenceIdeal
import proofs.«163792_j60713657697040_2_alg».proof.Proof.Gen.Pre_finite_inputs
import proofs.«163792_j60713657697040_2_alg».proof.Proof.RefSide
import proofs.«163792_j60713657697040_2_alg».proof.Proof.Finite
import proofs.«163792_j60713657697040_2_alg».proof.Proof.Bridge
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- At the ideal instance, from memories agreeing on the seven arguments, both programs end with the specification's three
    arrays of those arguments: the kernel program by its run read back and the bridge (which uses that `dy`, `rstd` and
    `gamma` are real, from the precondition), the reference by its run read back. -/
theorem algebraic : Cert.algebraic_KernelIdeal_ReferenceIdeal := by
  intro m ρ m' ρ' hpre hagree
  refine ⟨fun c => Cert.LnBwd.Kernel.KX m c, fun c => Cert.LnBwd.Kernel.KG m c, fun c => Cert.LnBwd.Kernel.KB m c,
    Cert.LnBwd.Kernel.run m ρ, ?_⟩
  refine (θ_run Cert.ReferenceIdeal.defs _ _).mono (fun _ h c => ?_) (Cert.ReferenceIdeal.Value.run (F := Ideal) m' ρ')
  obtain ⟨h37, h41, h42, hargs⟩ := h c
  obtain ⟨e0, e1, e2, e3, e4, e5, e6⟩ := hagree c
  obtain ⟨f0, f3, f5⟩ := Cert.LnBwd.Finite.real_of_pre _ _ _ _ _ _ _ (hpre c)
  refine ⟨h37.trans ?_, h41.trans ?_, h42.trans ?_, hargs⟩
  · refine (Cert.ReferenceIdeal.Read.val_main_v37_eq _ _ _ _ _ _ _).trans ((Cert.LnBwd.RefSide.ref_gx _ _ _ _ _ _ _).trans ?_)
    show _ = Cert.LnBwd.Kernel.KX m c
    rw [e0, e1, e2, e3, e4, e5, e6]
    unfold Cert.LnBwd.Kernel.KX
    rw [Cert.LnBwd.Kernel.entry_v0, Cert.LnBwd.Kernel.entry_v1, Cert.LnBwd.Kernel.entry_v2, Cert.LnBwd.Kernel.entry_v3,
      Cert.LnBwd.Kernel.entry_v4, Cert.LnBwd.Kernel.entry_v5, Cert.LnBwd.Kernel.entry_v6]
    exact (Cert.LnBwd.Bridge.kx_eq _ _ _ _ _ _ _ f0 f3 f5).symm
  · refine (Cert.ReferenceIdeal.Read.val_main_v41_eq _ _ _ _ _).trans ((Cert.LnBwd.RefSide.ref_gg _ _ _ _ _).trans ?_)
    show _ = Cert.LnBwd.Kernel.KG m c
    rw [e0, e1, e2, e3, e4]
    unfold Cert.LnBwd.Kernel.KG
    rw [Cert.LnBwd.Kernel.entry_v0, Cert.LnBwd.Kernel.entry_v1, Cert.LnBwd.Kernel.entry_v2, Cert.LnBwd.Kernel.entry_v4,
      Cert.LnBwd.Kernel.entry_v5]
    exact (Cert.LnBwd.Bridge.kg_eq _ _ _ _ _).symm
  · refine (Cert.ReferenceIdeal.Read.val_main_v42_eq _).trans ((Cert.LnBwd.RefSide.ref_gb _).trans ?_)
    show _ = Cert.LnBwd.Kernel.KB m c
    rw [e0]
    unfold Cert.LnBwd.Kernel.KB
    rw [Cert.LnBwd.Kernel.entry_v0]
    exact (Cert.LnBwd.Bridge.kb_eq _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
